-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4x1024 .f32) (main_arg8 : FVec F S1024 .f32) (main_arg9 : FVec F S1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4096 .f32) (main_arg5 : FVec F S4096x1024 .f32) (main_arg6 : FVec F S4x1024 .f32) (main_arg7 : FVec F S4x1024 .f32) (main_arg8 : FVec F S1024 .f32) (main_arg9 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096 .f32) (main_arg5 : FVec F S4096x1024 .f32) (main_arg6 : FVec F S4x1024 .f32) (main_arg7 : FVec F S4x1024 .f32) (main_arg8 : FVec F S1024 .f32) (main_arg9 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S1024x4096 : Shape := ⟨2, ![1024, 4096]⟩
abbrev S1x4096 : Shape := ⟨2, ![1, 4096]⟩
abbrev S1x1024 : Shape := ⟨2, ![1, 1024]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 19
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4x1024, .f32⟩
  | .hbm, ⟨7, _⟩ => ⟨S4x1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S1024x4096, .bf16⟩
  | .hbm, ⟨12, _⟩ => ⟨S1024x4096, .f32⟩
  | .hbm, ⟨13, _⟩ => ⟨S1024x4096, .bf16⟩
  | .hbm, ⟨14, _⟩ => ⟨S1x4096, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1x4096, .f32⟩
  | .local _ .vmem, ⟨8, _⟩ => ⟨S1024x4096, .bf16⟩
  | .local _ .vmem, ⟨9, _⟩ => ⟨S4x1024, .f32⟩
  | .local _ .vmem, ⟨10, _⟩ => ⟨S4x1024, .f32⟩
  | .local _ .vmem, ⟨11, _⟩ => ⟨S1x1024, .f32⟩
  | .local _ .vmem, ⟨12, _⟩ => ⟨S1x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S4x1024_S4x1024_0_0 : ∀ a, (![0, 0] : Fin 2 → Nat) a + S4x1024.size a ≤ S4x1024.size a
  h_S4x1024 : 0 < S4x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  slices_S4x1024_o0_0_S1x1024 : S4x1024.Slices ![0, 0] S1x1024
  reduces_S128x1024_S128 : S128x1024.Reduces [1] S128
  shapeCasts_S128_S128x1 : S128.ShapeCasts S128x1
  broadcasts_S128x1_S128x1024 : S128x1.Broadcasts S128x1024
  broadcasts_S1x1024_S128x1024 : S1x1024.Broadcasts S128x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S4096x1024.size a
  hwx0_11 : ∀ i : grid0.Coords, EltTy.bits .f32 = 32 ∨ (Rect.block (s := S4096x1024) S128x1024.size (cc0_transform_11 i) (hinb0_11 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7_0) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_1) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S4x1024 : Shape := ⟨2, ![4, 1024]⟩
abbrev S1024 : Shape := ⟨1, ![1024]⟩
abbrev S1024x4096 : Shape := ⟨2, ![1024, 4096]⟩
abbrev S4096x4096 : Shape := ⟨2, ![4096, 4096]⟩
abbrev S1x4096 : Shape := ⟨2, ![1, 4096]⟩
abbrev S4096x4x1024 : Shape := ⟨3, ![4096, 4, 1024]⟩
abbrev S_ : Shape := ⟨0, ![]⟩
abbrev S4096x4 : Shape := ⟨2, ![4096, 4]⟩
abbrev S4096x4x1 : Shape := ⟨3, ![4096, 4, 1]⟩
abbrev S1x4x1024 : Shape := ⟨3, ![1, 4, 1024]⟩
abbrev S4096x1x1024 : Shape := ⟨3, ![4096, 1, 1024]⟩
abbrev S4096x1 : Shape := ⟨2, ![4096, 1]⟩
abbrev S1x1024 : Shape := ⟨2, ![1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4x1024, .f32⟩
  | .hbm, ⟨7, _⟩ => ⟨S4x1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S1024x4096, .f32⟩
  | .hbm, ⟨16, _⟩ => ⟨S4096x4096, .f32⟩
  | .hbm, ⟨17, _⟩ => ⟨S4096x4096, .f32⟩
  | .hbm, ⟨18, _⟩ => ⟨S4096x4x1024, .f32⟩
  | .hbm, ⟨19, _⟩ => ⟨S_, .f32⟩
  | .hbm, ⟨20, _⟩ => ⟨S4096x4, .f32⟩
  | .hbm, ⟨21, _⟩ => ⟨S4096x4x1, .f32⟩
  | .hbm, ⟨22, _⟩ => ⟨S_, .f32⟩
  | .hbm, ⟨23, _⟩ => ⟨S4096x4x1, .f32⟩
  | .hbm, ⟨24, _⟩ => ⟨S4096x4x1, .f32⟩
  | .hbm, ⟨25, _⟩ => ⟨S4096x4x1024, .f32⟩
  | .hbm, ⟨26, _⟩ => ⟨S4096x4x1024, .f32⟩
  | .hbm, ⟨27, _⟩ => ⟨S4096x4x1024, .f32⟩
  | .hbm, ⟨28, _⟩ => ⟨S_, .f32⟩
  | .hbm, ⟨29, _⟩ => ⟨S4096x4, .f32⟩
  | .hbm, ⟨30, _⟩ => ⟨S4096x4x1, .f32⟩
  | .hbm, ⟨31, _⟩ => ⟨S_, .f32⟩
  | .hbm, ⟨32, _⟩ => ⟨S4096x4x1, .f32⟩
  | .hbm, ⟨33, _⟩ => ⟨S4096x4x1, .f32⟩
  | .hbm, ⟨34, _⟩ => ⟨S4096x4x1, .f32⟩
  | .hbm, ⟨35, _⟩ => ⟨S4096x4x1024, .f32⟩
  | .hbm, ⟨36, _⟩ => ⟨S4096x4x1024, .f32⟩
  | .hbm, ⟨37, _⟩ => ⟨S1x4x1024, .f32⟩
  | .hbm, ⟨38, _⟩ => ⟨S4096x4x1024, .f32⟩
  | .hbm, ⟨39, _⟩ => ⟨S4096x4x1024, .f32⟩
  | .hbm, ⟨40, _⟩ => ⟨S_, .f32⟩
  | .hbm, ⟨41, _⟩ => ⟨S4096x4x1, .f32⟩
  | .hbm, ⟨42, _⟩ => ⟨S4096x4x1, .f32⟩
  | .hbm, ⟨43, _⟩ => ⟨S4096x4x1024, .f32⟩
  | .hbm, ⟨44, _⟩ => ⟨S4096x4x1024, .f32⟩
  | .hbm, ⟨45, _⟩ => ⟨S1x4x1024, .f32⟩
  | .hbm, ⟨46, _⟩ => ⟨S4096x4x1024, .f32⟩
  | .hbm, ⟨47, _⟩ => ⟨S4096x4x1024, .f32⟩
  | .hbm, ⟨48, _⟩ => ⟨S4096x1x1024, .f32⟩
  | .hbm, ⟨49, _⟩ => ⟨S4096x1024, .f32⟩
  | .hbm, ⟨50, _⟩ => ⟨S4096x1x1024, .f32⟩
  | .hbm, ⟨51, _⟩ => ⟨S4096x1024, .f32⟩
  | .hbm, ⟨52, _⟩ => ⟨S4096x1x1024, .f32⟩
  | .hbm, ⟨53, _⟩ => ⟨S4096x1024, .f32⟩
  | .hbm, ⟨54, _⟩ => ⟨S4096x1x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S4096x1, .f32⟩
  | .hbm, ⟨95, _⟩ => ⟨S4096x1024, .f32⟩
  | .hbm, ⟨96, _⟩ => ⟨S4096x1024, .f32⟩
  | .hbm, ⟨97, _⟩ => ⟨S1x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S_, .f32⟩
  | .hbm, ⟨112, _⟩ => ⟨S4096x1024, .f32⟩
  | .hbm, ⟨113, _⟩ => ⟨S4096x1024, .f32⟩
  | .hbm, ⟨114, _⟩ => ⟨S_, .f32⟩
  | .hbm, ⟨115, _⟩ => ⟨S4096x1024, .f32⟩
  | .hbm, ⟨116, _⟩ => ⟨S4096x1024, .f32⟩
  | .hbm, ⟨117, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_14 : Ref sig .tc := ⟨.hbm, 111, rfl⟩
abbrev main_v86 : Ref sig .tc := ⟨.hbm, 112, rfl⟩
abbrev main_v87 : Ref sig .tc := ⟨.hbm, 113, rfl⟩
abbrev main_cst_15 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x4x1024 : S4096x4096.ShapeCasts S4096x4x1024
  reducesTo_S4096x4x1024_S4096x4_d2 : S4096x4x1024.ReducesTo [2] S4096x4
  h_S_ : 0 < S_.numel
  bcast_S4096x4_S4096x4x1_0_1 : S4096x4.BroadcastsInDim S4096x4x1 (![0, 1] : Fin 2 → Fin S4096x4x1.rank)
  bcast_S_S4096x4x1 : S_.BroadcastsInDim S4096x4x1 (![] : Fin 0 → Fin S4096x4x1.rank)
  bcast_S4096x4x1_S4096x4x1024_0_1_2 : S4096x4x1.BroadcastsInDim S4096x4x1024 (![0, 1, 2] : Fin 3 → Fin S4096x4x1024.rank)
  bcast_S4x1024_S1x4x1024_1_2 : S4x1024.BroadcastsInDim S1x4x1024 (![1, 2] : Fin 2 → Fin S1x4x1024.rank)
  bcast_S1x4x1024_S4096x4x1024_0_1_2 : S1x4x1024.BroadcastsInDim S4096x4x1024 (![0, 1, 2] : Fin 3 → Fin S4096x4x1024.rank)
  slices_S4096x4x1024_S4096x1x1024_0_0_0 : S4096x4x1024.Slices ![0, 0, 0] S4096x1x1024
  shapeCasts_S4096x1x1024_S4096x1024 : S4096x1x1024.ShapeCasts S4096x1024
  slices_S4096x4x1024_S4096x1x1024_0_1_0 : S4096x4x1024.Slices ![0, 1, 0] S4096x1x1024
  slices_S4096x4x1024_S4096x1x1024_0_2_0 : S4096x4x1024.Slices ![0, 2, 0] S4096x1x1024
  slices_S4096x4x1024_S4096x1x1024_0_3_0 : S4096x4x1024.Slices ![0, 3, 0] S4096x1x1024
  bcast_S_S4096x1024 : S_.BroadcastsInDim S4096x1024 (![] : Fin 0 → Fin S4096x1024.rank)
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.CellMath.lean ====
/-
  The LSTM cell with layer normalisation, as a function of one batch row, on the extended reals.

  For one batch row with input x, hidden state h and cell state c (1024 lanes each), weights wi, wh (4096 output
  columns of 1024 each) and bias b:
    pre n      = (sum_k x k * wi n k) + (sum_k h k * wh n k) + b n                       for each of the 4096 columns n,
    gate p     = lnorm (the 1024 lanes pre (1024 p + j) of gate p) (gamma p) (beta p)     for the four gates p = i, f, g, o,
    cellPre j  = c j * logistic (gate_f j + 1) + logistic (gate_i j) * tanh (gate_g j),
    newC       = lnorm cellPre gamma_c beta_c,
    newH j     = tanh (newC j) * logistic (gate_o j),
  where lnorm z gamma beta j = gamma j * (z j - mean z) / (sqrt (sum_k (z k - mean z)^2 / 1023) + eps) + beta j and
  mean z = (sum_k z k) / 1024: the unbiased standard deviation, eps added to it and not under the root.
  Every operation is the extended reals' own (Ideal.div, Ideal.sqrt, Ideal.logistic, Ideal.tanh), so no finiteness
  is needed to state it, and the float constants stay the bit patterns both programs spell.
-/
import Idealize.ShloMosaic.PureOps.Ideal
import Idealize.ShloMosaic.Lib.ValueIdx

noncomputable section

namespace Cert.CellMath

open Idealize.ShloMosaic Idealize.ShloMosaic.ValueIdx

/-- The 1024 lanes of one row. -/
abbrev Row := Fin 1024 → EReal

/-- Row r of a matrix with 1024 lanes. -/
def rowOf {a : ℕ} (v : (⟨2, ![a, 1024]⟩ : Shape).Idx → EReal) (r : Fin a) : Row := fun k => v (ix2 r k)

/-- The rows of a matrix with 1024 lanes, as a family. -/
def rowsOf {a : ℕ} (v : (⟨2, ![a, 1024]⟩ : Shape).Idx → EReal) : Fin a → Row := fun p => rowOf v p

/-- The columns of a [1024, 4096] matrix (the transposed weights), each as a row of 1024 input lanes. -/
def colsOf (w : (⟨2, ![1024, 4096]⟩ : Shape).Idx → EReal) : Fin 4096 → Row := fun n k => w (ix2 k n)

/-- The one row of a [1, 4096] matrix (the bias). -/
def biasOf (b : (⟨2, ![1, 4096]⟩ : Shape).Idx → EReal) : Fin 4096 → EReal := fun n => b (ix2 (0 : Fin 1) n)

/-- A vector [n] as a function of its one coordinate. -/
def vecOf {n : ℕ} (v : (⟨1, ![n]⟩ : Shape).Idx → EReal) : Fin n → EReal := fun i => v (ix1 i)

/-- 1024.0, the number of lanes. -/
def c1024 : EReal := Ideal.ofBits .f32 0x44800000#32
/-- 1023.0, the unbiased variance's divisor. -/
def c1023 : EReal := Ideal.ofBits .f32 0x447FC000#32
/-- The f32 nearest 1e-6, added to the standard deviation. -/
def eps : EReal := Ideal.ofBits .f32 0x358637BD#32
/-- 1.0, the forget gate's offset. -/
def one : EReal := Ideal.ofBits .f32 0x3F800000#32

/-- The mean of a row. -/
def mean (z : Row) : EReal := Ideal.div (∑ k, z k) c1024

/-- The squared deviation of lane k from the row's mean. -/
def dev2 (z : Row) (k : Fin 1024) : EReal := (z k - mean z) * (z k - mean z)

/-- The unbiased standard deviation of a row, plus eps: what the centred row is divided by. -/
def spread (z : Row) : EReal := Ideal.sqrt (Ideal.div (∑ k, dev2 z k) c1023) + eps

/-- Layer normalisation of a row. -/
def lnorm (z γ β : Row) : Row := fun j => Ideal.div (γ j * (z j - mean z)) (spread z) + β j

/-- The pre-activation of output column n. -/
def pre (x h : Row) (wi wh : Fin 4096 → Row) (b : Fin 4096 → EReal) (n : Fin 4096) : EReal :=
  (∑ k, x k * wi n k) + (∑ k, h k * wh n k) + b n

/-- Lane j of gate p is output column 1024 p + j. -/
def gateCol (p : Fin 4) (j : Fin 1024) : Fin 4096 := ⟨1024 * p.val + j.val, by omega⟩

/-- The 1024 pre-activations of gate p. -/
def gatePre (x h : Row) (wi wh : Fin 4096 → Row) (b : Fin 4096 → EReal) (p : Fin 4) : Row :=
  fun j => pre x h wi wh b (gateCol p j)

/-- Gate p, normalised with its own row of gamma and beta. -/
def gate (x h : Row) (wi wh : Fin 4096 → Row) (b : Fin 4096 → EReal) (γ β : Fin 4 → Row) (p : Fin 4) : Row :=
  lnorm (gatePre x h wi wh b p) (γ p) (β p)

/-- The cell update before its normalisation, from the normalised gates i, f, g. -/
def cellMix (c gi gf gg : Row) : Row :=
  fun j => c j * Ideal.logistic (gf j + one) + Ideal.logistic (gi j) * Ideal.tanh (gg j)

/-- The cell update before its normalisation. -/
def cellPre (x h c : Row) (wi wh : Fin 4096 → Row) (b : Fin 4096 → EReal) (γ β : Fin 4 → Row) : Row :=
  cellMix c (gate x h wi wh b γ β 0) (gate x h wi wh b γ β 1) (gate x h wi wh b γ β 2)

/-- The new cell state. -/
def newC (x h c : Row) (wi wh : Fin 4096 → Row) (b : Fin 4096 → EReal) (γ β : Fin 4 → Row) (γc βc : Row) : Row :=
  lnorm (cellPre x h c wi wh b γ β) γc βc

/-- The new hidden state. -/
def newH (x h c : Row) (wi wh : Fin 4096 → Row) (b : Fin 4096 → EReal) (γ β : Fin 4 → Row) (γc βc : Row) : Row :=
  fun j => Ideal.tanh (newC x h c wi wh b γ β γc βc j) * Ideal.logistic (gate x h wi wh b γ β 3 j)

/-! ## All rows at once: the two result arrays as functions of the ten argument arrays -/

/-- The new cell state [4096, 1024]: row b, lane j is newC of row b of x, h and c. -/
def cellC (X H C Wi Wh : (⟨2, ![4096, 1024]⟩ : Shape).Idx → EReal) (Bv : (⟨1, ![4096]⟩ : Shape).Idx → EReal)
    (G B : (⟨2, ![4, 1024]⟩ : Shape).Idx → EReal) (gc bc : (⟨1, ![1024]⟩ : Shape).Idx → EReal) :
    (⟨2, ![4096, 1024]⟩ : Shape).Idx → EReal :=
  fun i => newC (rowOf (a := 4096) X (i 0)) (rowOf (a := 4096) H (i 0)) (rowOf (a := 4096) C (i 0)) (rowsOf Wi) (rowsOf Wh) (vecOf Bv)
    (rowsOf G) (rowsOf B) (vecOf gc) (vecOf bc) (i 1)

/-- The new hidden state [4096, 1024]. -/
def cellH (X H C Wi Wh : (⟨2, ![4096, 1024]⟩ : Shape).Idx → EReal) (Bv : (⟨1, ![4096]⟩ : Shape).Idx → EReal)
    (G B : (⟨2, ![4, 1024]⟩ : Shape).Idx → EReal) (gc bc : (⟨1, ![1024]⟩ : Shape).Idx → EReal) :
    (⟨2, ![4096, 1024]⟩ : Shape).Idx → EReal :=
  fun i => newH (rowOf (a := 4096) X (i 0)) (rowOf (a := 4096) H (i 0)) (rowOf (a := 4096) C (i 0)) (rowsOf Wi) (rowsOf Wh) (vecOf Bv)
    (rowsOf G) (rowsOf B) (vecOf gc) (vecOf bc) (i 1)

/-! ## The two spellings of the host: the sigmoid written out, and a sum started from zero -/

/-- The pattern 1.0 denotes 1. -/
theorem one_eq : one = 1 := by
  unfold one
  simp [Ideal.ofBits, Ideal.ieee, -EReal.coe_mul]; norm_num

/-- 1 / (1 + exp (-x)) with the constants as 1.0 is the sigmoid. -/
theorem sigmoid_spelt (x : EReal) : Ideal.div one (one + Ideal.exp (-x)) = Ideal.logistic x := by
  rw [one_eq]; rfl

/-- The pattern +0.0 denotes 0, so a sum started from it is the sum. -/
theorem zero_start (s : EReal) : Ideal.ofBits .f32 0x00000000#32 + s = s := by
  have h : Ideal.ofBits .f32 0x00000000#32 = 0 := by simp [Ideal.ofBits, Ideal.ieee]
  rw [h, zero_add]

/-- The host adds the bias before the second product; on the extended reals the order of a sum does not matter. -/
theorem pre_host (x h : Row) (wi wh : Fin 4096 → Row) (b : Fin 4096 → EReal) (n : Fin 4096) :
    (∑ k, x k * wi n k) + b n + (∑ k, h k * wh n k) = pre x h wi wh b n := by
  unfold pre
  exact add_right_comm _ _ _

end Cert.CellMath

end
-- ==== Proof.KernelRow.lean ====
/-
  The kernel's body, one block row at a time, on the extended reals.

  A grid point holds 128 batch rows. Every value the body computes at row r, lane j of its block depends on row r
  of the x, h and c blocks only (and on the parameters, which every point holds whole): the two matrix products
  contract over the 1024 input lanes of row r, and each normalisation sums over the 1024 lanes of row r. This
  module reads the products and the layout steps of the body at (r, j); the next one assembles the cell.
-/
import proofs.«177142_j19353122636363_1_alg».proof.Proof.Gen.KernelIdeal.Skeleton
import proofs.«177142_j19353122636363_1_alg».proof.Proof.LibLayoutRead
import proofs.«177142_j19353122636363_1_alg».proof.Proof.CellMath

noncomputable section

namespace Cert.KernelIdeal.RowValue

open Cert.KernelIdeal Cert.KernelIdeal.Gen Idealize.ShloMosaic Idealize.ShloMosaic.ValueIdx Cert.LayoutRead Cert.CellMath

/-! ## The matrix product of a block row with the transposed weights -/

/-- The product's dimension numbers: rows of the left operand against columns of the right, contracting the 1024 input lanes. -/
abbrev D := dot_S128x1024_S1024x4096_S128x4096_1_0_0_1_n_n

/-- The left operand is read at the output's row ... -/
theorem lhs_0 (i : S128x4096.Idx) (q : D.contr.Idx) : (D.lhsIdx i q 0).val = (i 0).val := by
  unfold DotDims.lhsIdx
  rw [dif_neg (show ¬(0 : Fin S128x1024.rank) ∈ D.lhsBatch by decide), dif_pos (show (0 : Fin S128x1024.rank) ∈ D.lhsNonContracting by decide)]
  rfl

/-- ... and at the contraction's lane. -/
theorem lhs_1 (i : S128x4096.Idx) (q : D.contr.Idx) : (D.lhsIdx i q 1).val = (q ⟨0, by decide⟩).val :=
  D.lhsIdx_val_of_single rfl i q

/-- The right operand is read at the contraction's lane ... -/
theorem rhs_0 (i : S128x4096.Idx) (q : D.contr.Idx) : (D.rhsIdx i q 0).val = (q ⟨0, by decide⟩).val :=
  D.rhsIdx_val_of_single rfl i q

/-- ... and at the output's column. -/
theorem rhs_1 (i : S128x4096.Idx) (q : D.contr.Idx) : (D.rhsIdx i q 1).val = (i 1).val := by
  unfold DotDims.rhsIdx
  rw [dif_neg (show ¬(1 : Fin S1024x4096.rank) ∈ D.rhsBatch by decide), dif_pos (show (1 : Fin S1024x4096.rank) ∈ D.rhsNonContracting by decide)]
  rfl

/-- Row r of a block times column n of the weights: the sum over the 1024 input lanes (the change to bf16 is the
    identity on the extended reals, and the product accumulates onto zero). -/
theorem kdot (x : FVec Ideal S128x1024 .f32) (w : FVec Ideal S1024x4096 .bf16) (hb : FTy.bf16.bits < FTy.f32.bits)
    (r : Fin 128) (n : Fin 4096) :
    matmul D none (truncf .bf16 x hb) w (constant S128x4096 .f32 0x00000000#32) (ix2 r n)
      = ∑ k : Fin 1024, x (ix2 r k) * w (ix2 k n) := by
  refine (Ideal.matmul_constant_zero_apply D none _ _ (ix2 r n)).trans ?_
  rw [← Equiv.sum_comp (contrEquiv1 D 1024 rfl rfl).symm]
  refine Finset.sum_congr rfl fun k _ => ?_
  have hk := contrEquiv1_symm_val D 1024 rfl rfl k
  have el : D.lhsIdx (ix2 r n) ((contrEquiv1 D 1024 rfl rfl).symm k) = ix2 r k := funext fun a => Fin.ext (by
    match a with
    | ⟨0, _⟩ => exact lhs_0 _ _
    | ⟨1, _⟩ => exact (lhs_1 _ _).trans hk)
  have er : D.rhsIdx (ix2 r n) ((contrEquiv1 D 1024 rfl rfl).symm k) = ix2 k n := funext fun a => Fin.ext (by
    match a with
    | ⟨0, _⟩ => exact (rhs_0 _ _).trans hk
    | ⟨1, _⟩ => exact rhs_1 _ _)
  rw [el, er]
  rfl

/-- The pre-activations of a block row: column n is x·wi + h·wh + b. -/
theorem pay3_apply (x h : FVec Ideal S128x1024 .f32) (wi wh : FVec Ideal S1024x4096 .bf16) (b : FVec Ideal S1x4096 .f32)
    (r : Fin 128) (n : Fin 4096) :
    k0_pay3 (F := Ideal) x h wi wh b (ix2 r n)
      = pre (rowOf x r) (rowOf h r) (colsOf wi) (colsOf wh) (biasOf b) n := by
  unfold k0_pay3
  simp only [addf_apply, shapeCast_self, kdot, broadcastTo_1b_ab_apply]
  rfl

/-- Lane j of gate p of a block row is pre-activation column 1024 p + j. -/
theorem gate_cut (v : FVec Ideal S128x4096 .f32) (o : ℕ) (hS : S128x4096.Slices ![0, o] S128x1024) (p : Fin 4) (hp : o = 1024 * p.val)
    (r : Fin 128) (j : Fin 1024) : extractStridedSlice S128x1024 ![0, o] v hS (ix2 r j) = v (ix2 r (gateCol p j)) :=
  slice2_axis1_apply o v hS r j (gateCol p j) (by rw [hp]; rfl)

section Gates
variable (x h : FVec Ideal S128x1024 .f32) (wi wh : FVec Ideal S1024x4096 .bf16) (b : FVec Ideal S1x4096 .f32) (r : Fin 128) (k : Fin 1024)

/-- The lanes of gate i of block row r (columns 0 ... 1023 of the pre-activations). -/
theorem pay6_row : k0_pay6 (F := Ideal) x h wi wh b (ix2 r k) = gatePre (rowOf x r) (rowOf h r) (colsOf wi) (colsOf wh) (biasOf b) 0 k := by
  unfold k0_pay6
  rw [gate_cut _ 0 _ 0 rfl, pay3_apply]; rfl

/-- The lanes of gate f (columns 1024 ... 2047). -/
theorem pay7_row : k0_pay7 (F := Ideal) x h wi wh b (ix2 r k) = gatePre (rowOf x r) (rowOf h r) (colsOf wi) (colsOf wh) (biasOf b) 1 k := by
  unfold k0_pay7
  rw [gate_cut _ 1024 _ 1 rfl, pay3_apply]; rfl

/-- The lanes of gate g (columns 2048 ... 3071). -/
theorem pay8_row : k0_pay8 (F := Ideal) x h wi wh b (ix2 r k) = gatePre (rowOf x r) (rowOf h r) (colsOf wi) (colsOf wh) (biasOf b) 2 k := by
  unfold k0_pay8
  rw [gate_cut _ 2048 _ 2 rfl, pay3_apply]; rfl

/-- The lanes of gate o (columns 3072 ... 4095). -/
theorem pay9_row : k0_pay9 (F := Ideal) x h wi wh b (ix2 r k) = gatePre (rowOf x r) (rowOf h r) (colsOf wi) (colsOf wh) (biasOf b) 3 k := by
  unfold k0_pay9
  rw [gate_cut _ 3072 _ 3 rfl, pay3_apply]; rfl

end Gates

end Cert.KernelIdeal.RowValue

end
-- ==== Proof.KernelCell.lean ====
/-
  The kernel's body assembled: the normalisations and the cell, at row r, lane j of a block.

  Each normalisation of the body has one shape: a row statistic is a lane sum (a vector over the 128 rows), cast to a
  column, divided by a constant, and broadcast back over the lanes. With the row's lanes Z k = z (r, k) named, the mean
  column at row r is mean Z, the squared deviations' lane sum is the sum of dev2 Z, and the normalised value at (r, j) is
  lnorm Z gamma beta j. The body computes the first gate's mean and deviations in its first part, the third gate's in its
  second, the others in place; the lemmas below follow that cut.
-/
import proofs.«177142_j19353122636363_1_alg».proof.Proof.KernelRow

noncomputable section

namespace Cert.KernelIdeal.RowValue

open Cert.KernelIdeal Cert.KernelIdeal.Gen Idealize.ShloMosaic Idealize.ShloMosaic.ValueIdx Cert.LayoutRead Cert.CellMath

/-! ## The pieces of one normalisation -/

/-- The mean column at row r is the mean of the row. -/
theorem kmean (z : FVec Ideal S128x1024 .f32) (hR : S128x1024.Reduces [1] S128) (hC : S128.ShapeCasts S128x1)
    (r : Fin 128) (u : Fin 1) (Z : Row) (hz : ∀ k, z (ix2 r k) = Z k) :
    divf (shapeCast S128x1 (multiReduction .add [1] S128 z 0x00000000#32 hR (.inl rfl) rfl) hC)
        (broadcast S128x1 (Scalar.ofBits .f32 0x44800000#32)) (ix2 r u) = mean Z := by
  simp only [divf_apply, cast_col]
  rw [rowsum]
  simp only [hz]
  rfl

/-- The squared deviation at (r, k), given the mean column. -/
theorem kdev (z : FVec Ideal S128x1024 .f32) (μ : FVec Ideal S128x1 .f32) (hB : S128x1.Broadcasts S128x1024)
    (r : Fin 128) (k : Fin 1024) (Z : Row) (hz : ∀ k, z (ix2 r k) = Z k) (hμ : μ (ix2 r (0 : Fin 1)) = mean Z) :
    mulf (subf z (broadcastTo S128x1024 μ hB)) (subf z (broadcastTo S128x1024 μ hB)) (ix2 r k) = dev2 Z k := by
  simp only [mulf_apply, subf_apply, bcast_col, hz, hμ]
  rfl

/-- The lane sum of the squared deviations at row r. -/
theorem ksum (q : FVec Ideal S128x1024 .f32) (hR : S128x1024.Reduces [1] S128) (r : Fin 128) (Z : Row)
    (hq : ∀ k, q (ix2 r k) = dev2 Z k) :
    multiReduction .add [1] S128 q 0x00000000#32 hR (.inl rfl) rfl (ix1 r) = ∑ k, dev2 Z k := by
  rw [rowsum]
  simp only [hq]

/-- The normalised value at (r, j), from the centred row, the mean column and the deviations' lane sum. -/
theorem ktail (z : FVec Ideal S128x1024 .f32) (γ β : FVec Ideal S1x1024 .f32) (μ : FVec Ideal S128x1 .f32) (s : FVec Ideal S128 .f32)
    (hB1 : S1x1024.Broadcasts S128x1024) (hB2 : S128x1.Broadcasts S128x1024) (hC : S128.ShapeCasts S128x1)
    (r : Fin 128) (j : Fin 1024) (Z Γ Β : Row) (hz : ∀ k, z (ix2 r k) = Z k) (hμ : μ (ix2 r (0 : Fin 1)) = mean Z)
    (hs : s (ix1 r) = ∑ k, dev2 Z k) (hγ : γ (ix2 (0 : Fin 1) j) = Γ j) (hβ : β (ix2 (0 : Fin 1) j) = Β j) :
    addf (divf (mulf (broadcastTo S128x1024 γ hB1) (subf z (broadcastTo S128x1024 μ hB2)))
        (broadcastTo S128x1024 (addf (sqrt (divf (shapeCast S128x1 s hC) (broadcast S128x1 (Scalar.ofBits .f32 0x447FC000#32))))
          (broadcast S128x1 (Scalar.ofBits .f32 0x358637BD#32))) hB2))
      (broadcastTo S128x1024 β hB1) (ix2 r j) = lnorm Z Γ Β j := by
  simp only [addf_apply, divf_apply, mulf_apply, subf_apply, broadcastTo_1b_ab_apply, bcast_col, hz, hμ, hγ, hβ]
  show Ideal.div (Γ j * (Z j - mean Z)) (Ideal.sqrt (Ideal.div (shapeCast S128x1 s hC (ix2 r (0 : Fin 1))) c1023) + eps) + Β j = _
  rw [cast_col, hs]
  rfl

/-- Row p of the per-gate parameters, cut out as a row [1, 1024]. -/
theorem kpar (G : FVec Ideal S4x1024 .f32) (o : ℕ) (hS : S4x1024.Slices ![o, 0] S1x1024) (p : Fin 4) (hp : p.val = o) (j : Fin 1024) :
    extractStridedSlice S1x1024 ![o, 0] G hS (ix2 (0 : Fin 1) j) = rowOf G p j :=
  slice2_axis0_apply o G hS (0 : Fin 1) j p (by rw [hp]; rfl)

/-- The cell update before its normalisation at (r, j), from the three normalised gates there. -/
theorem kmix (c gf gi gg : FVec Ideal S128x1024 .f32) (r : Fin 128) (j : Fin 1024) (C Gi Gf Gg : Row)
    (hc : c (ix2 r j) = C j) (hf : gf (ix2 r j) = Gf j) (hi : gi (ix2 r j) = Gi j) (hg : gg (ix2 r j) = Gg j) :
    addf (mulf c (logistic (addf gf (broadcast S128x1024 (Scalar.ofBits .f32 0x3F800000#32))))) (mulf (logistic gi) (tanh gg)) (ix2 r j)
      = cellMix C Gi Gf Gg j := by
  show c (ix2 r j) * Ideal.logistic (gf (ix2 r j) + one) + Ideal.logistic (gi (ix2 r j)) * Ideal.tanh (gg (ix2 r j)) = _
  rw [hc, hf, hi, hg]
  rfl

/-! ## The body's values at row r of a block -/

section Block
variable (x h c : FVec Ideal S128x1024 .f32) (wi wh : FVec Ideal S1024x4096 .bf16) (b : FVec Ideal S1x4096 .f32)
  (G B : FVec Ideal S4x1024 .f32) (gc bc : FVec Ideal S1x1024 .f32) (r : Fin 128)

/-- Gate i's gamma: row 0 of the gates' gamma. -/
theorem pay10_apply (j : Fin 1024) : k0_pay10 (F := Ideal) G (ix2 (0 : Fin 1) j) = rowOf G 0 j := by
  unfold k0_pay10
  exact kpar G 0 _ 0 rfl j

/-- Gate i's beta: row 0 of the gates' beta. -/
theorem pay11_apply (j : Fin 1024) : k0_pay11 (F := Ideal) B (ix2 (0 : Fin 1) j) = rowOf B 0 j := by
  unfold k0_pay11
  exact kpar B 0 _ 0 rfl j

/-- Gate g's gamma: row 2. -/
theorem pay16_apply (j : Fin 1024) : k0_pay16 (F := Ideal) G (ix2 (0 : Fin 1) j) = rowOf G 2 j := by
  unfold k0_pay16
  exact kpar G 2 _ 2 rfl j

/-- Gate g's beta: row 2. -/
theorem pay17_apply (j : Fin 1024) : k0_pay17 (F := Ideal) B (ix2 (0 : Fin 1) j) = rowOf B 2 j := by
  unfold k0_pay17
  exact kpar B 2 _ 2 rfl j

/-- The cell's gamma, held as a one-row matrix. -/
theorem pay4_apply (j : Fin 1024) : k0_pay4 (F := Ideal) gc (ix2 (0 : Fin 1) j) = rowOf gc 0 j := by
  unfold k0_pay4
  rw [shapeCast_self]; rfl

/-- The cell's beta, held as a one-row matrix. -/
theorem pay5_apply (j : Fin 1024) : k0_pay5 (F := Ideal) bc (ix2 (0 : Fin 1) j) = rowOf bc 0 j := by
  unfold k0_pay5
  rw [shapeCast_self]; rfl

/-- The first gate's mean column (computed in the body's first part). -/
theorem pay12_apply (u : Fin 1) :
    k0_pay12 (F := Ideal) x h wi wh b (ix2 r u) = mean (gatePre (rowOf x r) (rowOf h r) (colsOf wi) (colsOf wh) (biasOf b) 0) := by
  unfold k0_pay12
  exact kmean _ _ _ r u _ (pay6_row x h wi wh b r)

/-- The first gate's squared deviations. -/
theorem pay13_apply (k : Fin 1024) :
    k0_pay13 (F := Ideal) x h wi wh b (ix2 r k) = dev2 (gatePre (rowOf x r) (rowOf h r) (colsOf wi) (colsOf wh) (biasOf b) 0) k := by
  unfold k0_pay13
  exact kdev _ _ _ r k _ (pay6_row x h wi wh b r) (pay12_apply x h wi wh b r 0)

/-- Gate i, normalised. -/
theorem gate0_apply (j : Fin 1024) :
    k0_pay14 (F := Ideal) (k0_pay6 x h wi wh b) (k0_pay10 G) (k0_pay11 B) (k0_pay12 x h wi wh b) (k0_pay13 x h wi wh b) (ix2 r j)
      = gate (rowOf x r) (rowOf h r) (colsOf wi) (colsOf wh) (biasOf b) (rowsOf G) (rowsOf B) 0 j := by
  unfold k0_pay14
  exact ktail _ _ _ _ _ _ _ _ r j _ _ _ (pay6_row x h wi wh b r) (pay12_apply x h wi wh b r 0)
    (ksum _ _ r _ (pay13_apply x h wi wh b r)) (pay10_apply G j) (pay11_apply B j)

/-- A gate normalised in place: mean, deviations and the quotient from one row vector z whose lanes are Z. -/
theorem kgate (z : FVec Ideal S128x1024 .f32) (G B : FVec Ideal S4x1024 .f32) (o : ℕ) (p : Fin 4) (hp : p.val = o)
    (hS : S4x1024.Slices ![o, 0] S1x1024) (hB1 : S1x1024.Broadcasts S128x1024) (hB2 : S128x1.Broadcasts S128x1024)
    (hC : S128.ShapeCasts S128x1) (hR : S128x1024.Reduces [1] S128) (r : Fin 128) (j : Fin 1024) (Z : Row) (hz : ∀ k, z (ix2 r k) = Z k) :
    addf (divf (mulf (broadcastTo S128x1024 (extractStridedSlice S1x1024 ![o, 0] G hS) hB1)
          (subf z (broadcastTo S128x1024 (divf (shapeCast S128x1 (multiReduction .add [1] S128 z 0x00000000#32 hR (.inl rfl) rfl) hC)
            (broadcast S128x1 (Scalar.ofBits .f32 0x44800000#32))) hB2)))
        (broadcastTo S128x1024 (addf (sqrt (divf (shapeCast S128x1 (multiReduction .add [1] S128
            (mulf (subf z (broadcastTo S128x1024 (divf (shapeCast S128x1 (multiReduction .add [1] S128 z 0x00000000#32 hR (.inl rfl) rfl) hC)
              (broadcast S128x1 (Scalar.ofBits .f32 0x44800000#32))) hB2))
             (subf z (broadcastTo S128x1024 (divf (shapeCast S128x1 (multiReduction .add [1] S128 z 0x00000000#32 hR (.inl rfl) rfl) hC)
              (broadcast S128x1 (Scalar.ofBits .f32 0x44800000#32))) hB2))) 0x00000000#32 hR (.inl rfl) rfl) hC)
            (broadcast S128x1 (Scalar.ofBits .f32 0x447FC000#32))))
          (broadcast S128x1 (Scalar.ofBits .f32 0x358637BD#32))) hB2))
      (broadcastTo S128x1024 (extractStridedSlice S1x1024 ![o, 0] B hS) hB1) (ix2 r j) = lnorm Z (rowOf G p) (rowOf B p) j :=
  ktail _ _ _ _ _ _ _ _ r j _ _ _ hz (kmean z hR hC r 0 Z hz)
    (ksum _ _ r _ (fun k => kdev z _ hB2 r k Z hz (kmean z hR hC r 0 Z hz))) (kpar G o hS p hp j) (kpar B o hS p hp j)

/-- Gate f, normalised. -/
theorem gate1_apply (j : Fin 1024) :
    k0_pay15 (F := Ideal) G B (k0_pay7 x h wi wh b) (ix2 r j)
      = gate (rowOf x r) (rowOf h r) (colsOf wi) (colsOf wh) (biasOf b) (rowsOf G) (rowsOf B) 1 j := by
  unfold k0_pay15
  exact kgate _ G B 1 1 rfl _ _ _ _ _ r j _ (pay7_row x h wi wh b r)

/-- Gate o, normalised. -/
theorem gate3_apply (j : Fin 1024) :
    k0_pay20 (F := Ideal) G B (k0_pay9 x h wi wh b) (ix2 r j)
      = gate (rowOf x r) (rowOf h r) (colsOf wi) (colsOf wh) (biasOf b) (rowsOf G) (rowsOf B) 3 j := by
  unfold k0_pay20
  exact kgate _ G B 3 3 rfl _ _ _ _ _ r j _ (pay9_row x h wi wh b r)

/-- The third gate's mean column (computed in the body's second part). -/
theorem pay18_apply (u : Fin 1) :
    k0_pay18 (F := Ideal) (k0_pay8 x h wi wh b) (ix2 r u) = mean (gatePre (rowOf x r) (rowOf h r) (colsOf wi) (colsOf wh) (biasOf b) 2) := by
  unfold k0_pay18
  exact kmean _ _ _ r u _ (pay8_row x h wi wh b r)

/-- The lane sum of the third gate's squared deviations. -/
theorem pay19_apply :
    k0_pay19 (F := Ideal) (k0_pay8 x h wi wh b) (ix1 r) = ∑ k, dev2 (gatePre (rowOf x r) (rowOf h r) (colsOf wi) (colsOf wh) (biasOf b) 2) k := by
  unfold k0_pay19
  exact ksum _ _ r _ (fun k => kdev _ _ _ r k _ (pay8_row x h wi wh b r) (pay18_apply x h wi wh b r 0))

/-- The cell update before its normalisation (gate g is normalised here, from the statistics of the second part). -/
theorem mix_apply (j : Fin 1024) :
    k0_pay21 (F := Ideal) c (k0_pay8 x h wi wh b)
        (k0_pay14 (k0_pay6 x h wi wh b) (k0_pay10 G) (k0_pay11 B) (k0_pay12 x h wi wh b) (k0_pay13 x h wi wh b))
        (k0_pay15 G B (k0_pay7 x h wi wh b)) (k0_pay16 G) (k0_pay17 B) (k0_pay18 (k0_pay8 x h wi wh b)) (k0_pay19 (k0_pay8 x h wi wh b)) (ix2 r j)
      = cellPre (rowOf x r) (rowOf h r) (rowOf c r) (colsOf wi) (colsOf wh) (biasOf b) (rowsOf G) (rowsOf B) j := by
  unfold k0_pay21
  exact kmix c _ _ _ r j _ _ _ _ rfl (gate1_apply x h wi wh b G B r j) (gate0_apply x h wi wh b G B r j)
    (ktail _ _ _ _ _ _ _ _ r j _ _ _ (pay8_row x h wi wh b r) (pay18_apply x h wi wh b r 0) (pay19_apply x h wi wh b r)
      (pay16_apply G j) (pay17_apply B j))

/-- The mean column of the cell update. -/
theorem cmean_apply (u : Fin 1) :
    k0_pay22 (F := Ideal) c (k0_pay8 x h wi wh b)
        (k0_pay14 (k0_pay6 x h wi wh b) (k0_pay10 G) (k0_pay11 B) (k0_pay12 x h wi wh b) (k0_pay13 x h wi wh b))
        (k0_pay15 G B (k0_pay7 x h wi wh b)) (k0_pay16 G) (k0_pay17 B) (k0_pay18 (k0_pay8 x h wi wh b)) (k0_pay19 (k0_pay8 x h wi wh b)) (ix2 r u)
      = mean (cellPre (rowOf x r) (rowOf h r) (rowOf c r) (colsOf wi) (colsOf wh) (biasOf b) (rowsOf G) (rowsOf B)) := by
  unfold k0_pay22
  exact kmean _ _ _ r u _ (mix_apply x h c wi wh b G B r)

/-- THE NEW CELL STATE at row r, lane j of a block. -/
theorem blockC (j : Fin 1024) :
    k0_pay1 (F := Ideal) (k0_pay4 gc) (k0_pay5 bc)
        (k0_pay21 c (k0_pay8 x h wi wh b)
          (k0_pay14 (k0_pay6 x h wi wh b) (k0_pay10 G) (k0_pay11 B) (k0_pay12 x h wi wh b) (k0_pay13 x h wi wh b))
          (k0_pay15 G B (k0_pay7 x h wi wh b)) (k0_pay16 G) (k0_pay17 B) (k0_pay18 (k0_pay8 x h wi wh b)) (k0_pay19 (k0_pay8 x h wi wh b)))
        (k0_pay22 c (k0_pay8 x h wi wh b)
          (k0_pay14 (k0_pay6 x h wi wh b) (k0_pay10 G) (k0_pay11 B) (k0_pay12 x h wi wh b) (k0_pay13 x h wi wh b))
          (k0_pay15 G B (k0_pay7 x h wi wh b)) (k0_pay16 G) (k0_pay17 B) (k0_pay18 (k0_pay8 x h wi wh b)) (k0_pay19 (k0_pay8 x h wi wh b))) (ix2 r j)
      = newC (rowOf x r) (rowOf h r) (rowOf c r) (colsOf wi) (colsOf wh) (biasOf b) (rowsOf G) (rowsOf B) (rowOf gc 0) (rowOf bc 0) j := by
  unfold k0_pay1
  exact ktail _ _ _ _ _ _ _ _ r j _ _ _ (mix_apply x h c wi wh b G B r) (cmean_apply x h c wi wh b G B r 0)
    (ksum _ _ r _ (fun k => kdev _ _ _ r k _ (mix_apply x h c wi wh b G B r) (cmean_apply x h c wi wh b G B r 0)))
    (pay4_apply gc j) (pay5_apply bc j)

/-- THE NEW HIDDEN STATE at row r, lane j of a block. -/
theorem blockH (j : Fin 1024) :
    k0_pay2 (F := Ideal) (k0_pay4 gc) (k0_pay5 bc) (k0_pay20 G B (k0_pay9 x h wi wh b))
        (k0_pay21 c (k0_pay8 x h wi wh b)
          (k0_pay14 (k0_pay6 x h wi wh b) (k0_pay10 G) (k0_pay11 B) (k0_pay12 x h wi wh b) (k0_pay13 x h wi wh b))
          (k0_pay15 G B (k0_pay7 x h wi wh b)) (k0_pay16 G) (k0_pay17 B) (k0_pay18 (k0_pay8 x h wi wh b)) (k0_pay19 (k0_pay8 x h wi wh b)))
        (k0_pay22 c (k0_pay8 x h wi wh b)
          (k0_pay14 (k0_pay6 x h wi wh b) (k0_pay10 G) (k0_pay11 B) (k0_pay12 x h wi wh b) (k0_pay13 x h wi wh b))
          (k0_pay15 G B (k0_pay7 x h wi wh b)) (k0_pay16 G) (k0_pay17 B) (k0_pay18 (k0_pay8 x h wi wh b)) (k0_pay19 (k0_pay8 x h wi wh b))) (ix2 r j)
      = newH (rowOf x r) (rowOf h r) (rowOf c r) (colsOf wi) (colsOf wh) (biasOf b) (rowsOf G) (rowsOf B) (rowOf gc 0) (rowOf bc 0) j := by
  unfold k0_pay2
  show Ideal.tanh (k0_pay1 (F := Ideal) _ _ _ _ (ix2 r j)) * Ideal.logistic (k0_pay20 (F := Ideal) G B (k0_pay9 x h wi wh b) (ix2 r j)) = _
  rw [blockC, gate3_apply]
  rfl

end Block

end Cert.KernelIdeal.RowValue

end
-- ==== Proof.KernelArrays.lean ====
/-
  The kernel's two result arrays as functions of the argument arrays.

  Grid point t holds rows 128 t ... 128 t + 127 of x, h and c, and the whole of every parameter. The weights reach the
  kernel transposed (and marked bf16, which changes nothing on the extended reals), so column n of the staged matrix is row n
  of the weight argument; the bias and the cell's gamma and beta reach it as one-row matrices. So what point t writes back
  is block t of cellH / cellC of the argument arrays, the 32 blocks cover the 4096 rows, and the arrays end as those functions.
-/
import proofs.«177142_j19353122636363_1_alg».proof.Proof.KernelBlocksP
import proofs.«177142_j19353122636363_1_alg».proof.Proof.KernelCell

noncomputable section

namespace Cert.KernelIdeal.ArrayValue

open Cert.KernelIdeal Cert.KernelIdeal.Gen Cert.KernelIdeal.ValueP Cert.KernelIdeal.RowValue
open Idealize.ShloMosaic Idealize.ShloMosaic.TcCoe Idealize.SL.Sem Idealize.ShloMosaic.ValueIdx Cert.LayoutRead Cert.CellMath
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the region finds in the arrays the host wrote -/

/-- The staged input weights: the argument transposed. -/
theorem V_wi (c : Dev nD) : (V m c main_v1 : S1024x4096.Idx → EReal)
    = truncf (F := Ideal) .bf16 (transpose S1024x4096 [1, 0] (m ((c : Thread nD τ).loc main_arg3) : S4096x1024.Idx → EReal) transposes_S4096x1024_S1024x4096_1_0) bitsLt_bf16_f32 := by
  dsimp only [Gen.V, Gen.hostOps0]; after_results; all_goals rfl

/-- The staged hidden weights: the argument transposed. -/
theorem V_wh (c : Dev nD) : (V m c main_v3 : S1024x4096.Idx → EReal)
    = truncf (F := Ideal) .bf16 (transpose S1024x4096 [1, 0] (m ((c : Thread nD τ).loc main_arg5) : S4096x1024.Idx → EReal) transposes_S4096x1024_S1024x4096_1_0) bitsLt_bf16_f32 := by
  dsimp only [Gen.V, Gen.hostOps0]; after_results; all_goals rfl

/-- The bias as a one-row matrix. -/
theorem V_b (c : Dev nD) : (V m c main_v4 : S1x4096.Idx → EReal)
    = shapeCast S1x4096 (m ((c : Thread nD τ).loc main_arg4) : S4096.Idx → EReal) shapeCasts_S4096_S1x4096 := by
  dsimp only [Gen.V, Gen.hostOps0]; after_results; all_goals rfl

/-- The cell's gamma as a one-row matrix. -/
theorem V_gc (c : Dev nD) : (V m c main_v5 : S1x1024.Idx → EReal)
    = shapeCast S1x1024 (m ((c : Thread nD τ).loc main_arg8) : S1024.Idx → EReal) shapeCasts_S1024_S1x1024 := by
  dsimp only [Gen.V, Gen.hostOps0]; after_results; all_goals rfl

/-- The cell's beta as a one-row matrix. -/
theorem V_bc (c : Dev nD) : (V m c main_v6 : S1x1024.Idx → EReal)
    = shapeCast S1x1024 (m ((c : Thread nD τ).loc main_arg9) : S1024.Idx → EReal) shapeCasts_S1024_S1x1024 := by
  dsimp only [Gen.V, Gen.hostOps0]; after_results; all_goals rfl

/-! ## The windows' blocks -/

/-- The index maps, decided over the 32 grid points: the three batch windows and the two outputs sit at block row t,
    every parameter window at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Row r of the x block at point t is row 128 t + r of x. -/
theorem blk_x (c : Dev nD) (t : Fin cfg0.N) (r : Fin 128) (b : Fin 4096) (hb : b.val = 128 * t.val + r.val) :
    rowOf (iblk m c 0 t) r = rowOf (a := 4096) (m ((c : Thread nD τ).loc main_arg0)) b := by
  funext k
  unfold rowOf iblk
  rw [View.read_apply, ← V_main_arg0 m c]
  show V m c main_arg0 _ = V m c main_arg0 _
  refine congrArg _ (funext fun a => Fin.ext ?_)
  obtain ⟨e0, e1⟩ := (idx_facts t).1
  match a with
  | ⟨0, _⟩ => show win0_0.index t (0 : Fin 2) * 128 + 1 * r.val = b.val; omega
  | ⟨1, _⟩ => show win0_0.index t (1 : Fin 2) * 1024 + 1 * k.val = k.val; omega

/-- Row r of the h block at point t is row 128 t + r of h. -/
theorem blk_h (c : Dev nD) (t : Fin cfg0.N) (r : Fin 128) (b : Fin 4096) (hb : b.val = 128 * t.val + r.val) :
    rowOf (iblk m c 1 t) r = rowOf (a := 4096) (m ((c : Thread nD τ).loc main_arg1)) b := by
  funext k
  unfold rowOf iblk
  rw [View.read_apply, ← V_main_arg1 m c]
  show V m c main_arg1 _ = V m c main_arg1 _
  refine congrArg _ (funext fun a => Fin.ext ?_)
  obtain ⟨e0, e1⟩ := (idx_facts t).2.1
  match a with
  | ⟨0, _⟩ => show win0_1.index t (0 : Fin 2) * 128 + 1 * r.val = b.val; omega
  | ⟨1, _⟩ => show win0_1.index t (1 : Fin 2) * 1024 + 1 * k.val = k.val; omega

/-- Row r of the c block at point t is row 128 t + r of c. -/
theorem blk_c (c : Dev nD) (t : Fin cfg0.N) (r : Fin 128) (b : Fin 4096) (hb : b.val = 128 * t.val + r.val) :
    rowOf (iblk m c 2 t) r = rowOf (a := 4096) (m ((c : Thread nD τ).loc main_arg2)) b := by
  funext k
  unfold rowOf iblk
  rw [View.read_apply, ← V_main_arg2 m c]
  show V m c main_arg2 _ = V m c main_arg2 _
  refine congrArg _ (funext fun a => Fin.ext ?_)
  obtain ⟨e0, e1⟩ := (idx_facts t).2.2.1
  match a with
  | ⟨0, _⟩ => show win0_2.index t (0 : Fin 2) * 128 + 1 * r.val = b.val; omega
  | ⟨1, _⟩ => show win0_2.index t (1 : Fin 2) * 1024 + 1 * k.val = k.val; omega

/-- Every point holds the whole staged input weights. -/
theorem blk_wi (c : Dev nD) (t : Fin cfg0.N) : (iblk m c 3 t : S1024x4096.Idx → EReal) = V m c main_v1 := by
  funext y
  unfold iblk
  rw [View.read_apply]
  show V m c main_v1 _ = V m c main_v1 y
  refine congrArg _ (funext fun a => Fin.ext ?_)
  obtain ⟨e0, e1⟩ := (idx_facts t).2.2.2.1
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- Every point holds the whole bias row. -/
theorem blk_b (c : Dev nD) (t : Fin cfg0.N) : (iblk m c 4 t : S1x4096.Idx → EReal) = V m c main_v4 := by
  funext y
  unfold iblk
  rw [View.read_apply]
  show V m c main_v4 _ = V m c main_v4 y
  refine congrArg _ (funext fun a => Fin.ext ?_)
  obtain ⟨e0, e1⟩ := (idx_facts t).2.2.2.2.1
  match a with
  | ⟨0, _⟩ => show win0_4.index t (0 : Fin 2) * 1 + 1 * (y 0).val = (y 0).val; omega
  | ⟨1, _⟩ => show win0_4.index t (1 : Fin 2) * 4096 + 1 * (y 1).val = (y 1).val; omega

/-- Every point holds the whole staged hidden weights. -/
theorem blk_wh (c : Dev nD) (t : Fin cfg0.N) : (iblk m c 5 t : S1024x4096.Idx → EReal) = V m c main_v3 := by
  funext y
  unfold iblk
  rw [View.read_apply]
  show V m c main_v3 _ = V m c main_v3 y
  refine congrArg _ (funext fun a => Fin.ext ?_)
  obtain ⟨e0, e1⟩ := (idx_facts t).2.2.2.2.2.1
  match a with
  | ⟨0, _⟩ => show win0_5.index t (0 : Fin 2) * 1024 + 1 * (y 0).val = (y 0).val; omega
  | ⟨1, _⟩ => show win0_5.index t (1 : Fin 2) * 4096 + 1 * (y 1).val = (y 1).val; omega

/-- Every point holds the gates' gamma whole. -/
theorem blk_G (c : Dev nD) (t : Fin cfg0.N) : (iblk m c 6 t : S4x1024.Idx → EReal) = V m c main_arg6 := by
  funext y
  unfold iblk
  rw [View.read_apply]
  show V m c main_arg6 _ = V m c main_arg6 y
  refine congrArg _ (funext fun a => Fin.ext ?_)
  obtain ⟨e0, e1⟩ := (idx_facts t).2.2.2.2.2.2.1
  match a with
  | ⟨0, _⟩ => show win0_6.index t (0 : Fin 2) * 4 + 1 * (y 0).val = (y 0).val; omega
  | ⟨1, _⟩ => show win0_6.index t (1 : Fin 2) * 1024 + 1 * (y 1).val = (y 1).val; omega

/-- Every point holds the gates' beta whole. -/
theorem blk_B (c : Dev nD) (t : Fin cfg0.N) : (iblk m c 7 t : S4x1024.Idx → EReal) = V m c main_arg7 := by
  funext y
  unfold iblk
  rw [View.read_apply]
  show V m c main_arg7 _ = V m c main_arg7 y
  refine congrArg _ (funext fun a => Fin.ext ?_)
  obtain ⟨e0, e1⟩ := (idx_facts t).2.2.2.2.2.2.2.1
  match a with
  | ⟨0, _⟩ => show win0_7.index t (0 : Fin 2) * 4 + 1 * (y 0).val = (y 0).val; omega
  | ⟨1, _⟩ => show win0_7.index t (1 : Fin 2) * 1024 + 1 * (y 1).val = (y 1).val; omega

/-- Every point holds the cell's gamma row. -/
theorem blk_gc (c : Dev nD) (t : Fin cfg0.N) : (iblk m c 8 t : S1x1024.Idx → EReal) = V m c main_v5 := by
  funext y
  unfold iblk
  rw [View.read_apply]
  show V m c main_v5 _ = V m c main_v5 y
  refine congrArg _ (funext fun a => Fin.ext ?_)
  obtain ⟨e0, e1⟩ := (idx_facts t).2.2.2.2.2.2.2.2.1
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- Every point holds the cell's beta row. -/
theorem blk_bc (c : Dev nD) (t : Fin cfg0.N) : (iblk m c 9 t : S1x1024.Idx → EReal) = V m c main_v6 := by
  funext y
  unfold iblk
  rw [View.read_apply]
  show V m c main_v6 _ = V m c main_v6 y
  refine congrArg _ (funext fun a => Fin.ext ?_)
  obtain ⟨e0, e1⟩ := (idx_facts t).2.2.2.2.2.2.2.2.2.1
  match a with
  | ⟨0, _⟩ => show win0_9.index t (0 : Fin 2) * 1 + 1 * (y 0).val = (y 0).val; omega
  | ⟨1, _⟩ => show win0_9.index t (1 : Fin 2) * 1024 + 1 * (y 1).val = (y 1).val; omega

/-- Column n of the staged input weights is row n of the weight argument. -/
theorem cols_wi (c : Dev nD) (t : Fin cfg0.N) : colsOf (iblk m c 3 t) = rowsOf (a := 4096) (m ((c : Thread nD τ).loc main_arg3)) := by
  rw [blk_wi, V_wi]
  funext n k
  exact transpose_ix2_apply _ _ k n

/-- Column n of the staged hidden weights is row n of the weight argument. -/
theorem cols_wh (c : Dev nD) (t : Fin cfg0.N) : colsOf (iblk m c 5 t) = rowsOf (a := 4096) (m ((c : Thread nD τ).loc main_arg5)) := by
  rw [blk_wh, V_wh]
  funext n k
  exact transpose_ix2_apply _ _ k n

/-- The staged bias row is the bias argument. -/
theorem bias_b (c : Dev nD) (t : Fin cfg0.N) : biasOf (iblk m c 4 t) = vecOf (n := 4096) (m ((c : Thread nD τ).loc main_arg4)) := by
  rw [blk_b, V_b]
  funext n
  exact shapeCast_a_1a_apply _ _ 0 n

/-- The staged gamma of the cell is the argument. -/
theorem row_gc (c : Dev nD) (t : Fin cfg0.N) : rowOf (iblk m c 8 t) 0 = vecOf (n := 1024) (m ((c : Thread nD τ).loc main_arg8)) := by
  rw [blk_gc, V_gc]
  funext j
  exact shapeCast_a_1a_apply _ _ 0 j

/-- The staged beta of the cell is the argument. -/
theorem row_bc (c : Dev nD) (t : Fin cfg0.N) : rowOf (iblk m c 9 t) 0 = vecOf (n := 1024) (m ((c : Thread nD τ).loc main_arg9)) := by
  rw [blk_bc, V_bc]
  funext j
  exact shapeCast_a_1a_apply _ _ 0 j

/-- The gates' gamma as the region finds it is the argument. -/
theorem rows_G (c : Dev nD) (t : Fin cfg0.N) : rowsOf (iblk m c 6 t) = rowsOf (a := 4) (m ((c : Thread nD τ).loc main_arg6)) := by
  rw [blk_G, V_main_arg6]

/-- The gates' beta as the region finds it is the argument. -/
theorem rows_B (c : Dev nD) (t : Fin cfg0.N) : rowsOf (iblk m c 7 t) = rowsOf (a := 4) (m ((c : Thread nD τ).loc main_arg7)) := by
  rw [blk_B, V_main_arg7]

/-! ## What each point writes back, and the arrays after the run -/

/-- WHAT POINT t WRITES BACK to output window 10 is block t of cellH of the argument arrays. -/
theorem flushed10_eq (c : Dev nD) (t : Fin cfg0.N) :
    (dats m 0 c).flushed 10 t = ((cfg0.win 10).blk t).view.read (Elt Ideal) (cellH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8)) (m ((c : Thread nD τ).loc main_arg9))) := by
  rw [flushed10]
  unfold out0_10
  rw [View.canon_unit_zero hz]
  simp only [View.ld_unit_zero (S := S128x1024) hz, View.ld_unit_zero (S := S1024x4096) hz, View.ld_unit_zero (S := S1x4096) hz,
    View.ld_unit_zero (S := S4x1024) hz, View.ld_unit_zero (S := S1x1024) hz]
  funext y
  obtain ⟨r, j, rfl⟩ : ∃ (r : Fin 128) (j : Fin 1024), y = ix2 r j := ⟨y 0, y 1, eq_ix2 y⟩
  refine (blockH (iblk m c 0 t) (iblk m c 1 t) (iblk m c 2 t) (iblk m c 3 t) (iblk m c 5 t) (iblk m c 4 t) (iblk m c 6 t) (iblk m c 7 t)
    (iblk m c 8 t) (iblk m c 9 t) r j).trans ?_
  obtain ⟨e0, e1⟩ := (idx_facts t).2.2.2.2.2.2.2.2.2.2.1
  have hi0 : ((((cfg0.win 10).blk t).view.emb (ix2 r j)) 0).val = 128 * t.val + r.val := by
    show win0_10.index t (0 : Fin 2) * 128 + 1 * r.val = _
    omega
  have hi1 : (((cfg0.win 10).blk t).view.emb (ix2 r j)) 1 = j := Fin.ext (by
    show win0_10.index t (1 : Fin 2) * 1024 + 1 * j.val = j.val
    omega)
  rw [blk_x m c t r _ hi0, blk_h m c t r _ hi0, blk_c m c t r _ hi0, cols_wi, cols_wh, bias_b, rows_G, rows_B, row_gc, row_bc]
  show _ = newH _ _ _ _ _ _ _ _ _ _ ((((cfg0.win 10).blk t).view.emb (ix2 r j)) 1)
  rw [hi1]

/-- WHAT POINT t WRITES BACK to output window 11 is block t of cellC of the argument arrays. -/
theorem flushed11_eq (c : Dev nD) (t : Fin cfg0.N) :
    (dats m 0 c).flushed 11 t = ((cfg0.win 11).blk t).view.read (Elt Ideal) (cellC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8)) (m ((c : Thread nD τ).loc main_arg9))) := by
  rw [flushed11]
  unfold out0_11
  rw [View.canon_unit_zero hz]
  simp only [View.ld_unit_zero (S := S128x1024) hz, View.ld_unit_zero (S := S1024x4096) hz, View.ld_unit_zero (S := S1x4096) hz,
    View.ld_unit_zero (S := S4x1024) hz, View.ld_unit_zero (S := S1x1024) hz]
  funext y
  obtain ⟨r, j, rfl⟩ : ∃ (r : Fin 128) (j : Fin 1024), y = ix2 r j := ⟨y 0, y 1, eq_ix2 y⟩
  refine (blockC (iblk m c 0 t) (iblk m c 1 t) (iblk m c 2 t) (iblk m c 3 t) (iblk m c 5 t) (iblk m c 4 t) (iblk m c 6 t) (iblk m c 7 t)
    (iblk m c 8 t) (iblk m c 9 t) r j).trans ?_
  obtain ⟨e0, e1⟩ := (idx_facts t).2.2.2.2.2.2.2.2.2.2.2
  have hi0 : ((((cfg0.win 11).blk t).view.emb (ix2 r j)) 0).val = 128 * t.val + r.val := by
    show win0_11.index t (0 : Fin 2) * 128 + 1 * r.val = _
    omega
  have hi1 : (((cfg0.win 11).blk t).view.emb (ix2 r j)) 1 = j := Fin.ext (by
    show win0_11.index t (1 : Fin 2) * 1024 + 1 * j.val = j.val
    omega)
  rw [blk_x m c t r _ hi0, blk_h m c t r _ hi0, blk_c m c t r _ hi0, cols_wi, cols_wh, bias_b, rows_G, rows_B, row_gc, row_bc]
  show _ = newC _ _ _ _ _ _ _ _ _ _ ((((cfg0.win 11).blk t).view.emb (ix2 r j)) 1)
  rw [hi1]

/-- An index of the array is in point t's block iff each coordinate is in the block's range on its axis. -/
theorem mem_blk10 (t : Fin cfg0.N) (i : S4096x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v7_0).slice (win0_10.rect t)).set ↔ _
  rw [View.set_slice_whole, Rect.mem_set_unit]
  exact Iff.rfl

/-- Row b of the array lies in the block of point b / 128: the 32 blocks cover the 4096 rows. -/
theorem cover10 (i : S4096x1024.Idx) : ∃ t : Fin cfg0.N, (cfg0.win 10).flush t = true ∧ i ∈ ((cfg0.win 10).blk t).view.set := by
  have hi0 : (i 0).val < 4096 := (i 0).isLt
  have hi1 : (i 1).val < 1024 := (i 1).isLt
  have hN : cfg0.N = 32 := N_0
  obtain ⟨T, hT⟩ : ∃ T : Fin cfg0.N, T.val = (i 0).val / 128 := ⟨⟨(i 0).val / 128, by rw [hN]; omega⟩, rfl⟩
  refine ⟨T, flush0_10 T, ?_⟩
  rw [mem_blk10]
  obtain ⟨e0, e1⟩ := (idx_facts T).2.2.2.2.2.2.2.2.2.2.1
  intro a
  match a with
  | ⟨0, _⟩ =>
    show win0_10.index T (0 : Fin 2) * 128 ≤ (i 0).val ∧ (i 0).val < win0_10.index T (0 : Fin 2) * 128 + 128
    omega
  | ⟨1, _⟩ =>
    show win0_10.index T (1 : Fin 2) * 1024 ≤ (i 1).val ∧ (i 1).val < win0_10.index T (1 : Fin 2) * 1024 + 1024
    omega

/-- An index of the array is in point t's block iff each coordinate is in the block's range on its axis. -/
theorem mem_blk11 (t : Fin cfg0.N) (i : S4096x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v7_1).slice (win0_11.rect t)).set ↔ _
  rw [View.set_slice_whole, Rect.mem_set_unit]
  exact Iff.rfl

/-- Row b of the array lies in the block of point b / 128: the 32 blocks cover the 4096 rows. -/
theorem cover11 (i : S4096x1024.Idx) : ∃ t : Fin cfg0.N, (cfg0.win 11).flush t = true ∧ i ∈ ((cfg0.win 11).blk t).view.set := by
  have hi0 : (i 0).val < 4096 := (i 0).isLt
  have hi1 : (i 1).val < 1024 := (i 1).isLt
  have hN : cfg0.N = 32 := N_0
  obtain ⟨T, hT⟩ : ∃ T : Fin cfg0.N, T.val = (i 0).val / 128 := ⟨⟨(i 0).val / 128, by rw [hN]; omega⟩, rfl⟩
  refine ⟨T, flush0_11 T, ?_⟩
  rw [mem_blk11]
  obtain ⟨e0, e1⟩ := (idx_facts T).2.2.2.2.2.2.2.2.2.2.2
  intro a
  match a with
  | ⟨0, _⟩ =>
    show win0_11.index T (0 : Fin 2) * 128 ≤ (i 0).val ∧ (i 0).val < win0_11.index T (0 : Fin 2) * 128 + 128
    omega
  | ⟨1, _⟩ =>
    show win0_11.index T (1 : Fin 2) * 1024 ≤ (i 1).val ∧ (i 1).val < win0_11.index T (1 : Fin 2) * 1024 + 1024
    omega

/-- THE NEW HIDDEN STATE ARRAY after the run. -/
theorem final10 (c : Dev nD) : (dats m 0 c).arrAt 10 cfg0.N = cellH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8)) (m ((c : Thread nD τ).loc main_arg9)) :=
  (dats m 0 c).arrAt_eq_of_cover 10 _ (fun t _ => flushed10_eq m c t) cover10

/-- THE NEW CELL STATE ARRAY after the run. -/
theorem final11 (c : Dev nD) : (dats m 0 c).arrAt 11 cfg0.N = cellC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8)) (m ((c : Thread nD τ).loc main_arg9)) :=
  (dats m 0 c).arrAt_eq_of_cover 11 _ (fun t _ => flushed11_eq m c t) cover11

/-- The run, read: both result arrays at their functions of the arguments, the arguments unchanged. -/
theorem run : θ_run defs (onTc (τ := τ) (main (F := Ideal))) ⟨m, fun _ => 0, ρ⟩ fun r => ∀ c : Dev nD,
      r.2.mem ((c : Thread nD τ).loc main_v7_0) = cellH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8)) (m ((c : Thread nD τ).loc main_arg9))
      ∧ r.2.mem ((c : Thread nD τ).loc main_v7_1) = cellC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (run_blocks m ρ)

end Cert.KernelIdeal.ArrayValue

end
-- ==== Proof.ReferenceRows.lean ====
/-
  The reference, one batch row at a time, on the extended reals: the gates.

  The host computes all 4096 rows at once and keeps the four gates as one array [4096, 4, 1024]: the pre-activations
  [4096, 4096] are re-read by their row-major position, so gate p, lane j of row b is column 1024 p + j, and each
  normalisation sums over the last axis. With the lanes Z k = z (b, p, k) of one gate of one row named, the statistics
  are those of the cell: mean Z, the sum of dev2 Z, and lnorm Z gamma_p beta_p. The host starts each sum from a zero
  constant and adds the bias before the second product; neither changes the value.
-/
import proofs.«177142_j19353122636363_1_alg».proof.Proof.Gen.ReferenceIdeal.Run
import proofs.«177142_j19353122636363_1_alg».proof.Proof.LibLayoutRead
import proofs.«177142_j19353122636363_1_alg».proof.Proof.CellMath

noncomputable section

namespace Cert.ReferenceIdeal.RowValue

open Cert.ReferenceIdeal Cert.ReferenceIdeal.Gen Cert.ReferenceIdeal.Value Idealize.ShloMosaic Idealize.ShloMosaic.ValueIdx
open Idealize.ShloMosaic.StableHlo Cert.LayoutRead Cert.CellMath

/-! ## The matrix product of a batch row with the weights -/

/-- The product's dimension numbers: rows of the left operand against columns of the right, contracting the 1024 input lanes. -/
abbrev D := dot_S4096x1024_S1024x4096_S4096x4096_1_0_0_1_n_n

/-- The left operand is read at the output's row ... -/
theorem lhs_0 (i : S4096x4096.Idx) (q : D.contr.Idx) : (D.lhsIdx i q 0).val = (i 0).val := by
  unfold DotDims.lhsIdx
  rw [dif_neg (show ¬(0 : Fin S4096x1024.rank) ∈ D.lhsBatch by decide), dif_pos (show (0 : Fin S4096x1024.rank) ∈ D.lhsNonContracting by decide)]
  rfl

/-- ... and at the contraction's lane. -/
theorem lhs_1 (i : S4096x4096.Idx) (q : D.contr.Idx) : (D.lhsIdx i q 1).val = (q ⟨0, by decide⟩).val :=
  D.lhsIdx_val_of_single rfl i q

/-- The right operand is read at the contraction's lane ... -/
theorem rhs_0 (i : S4096x4096.Idx) (q : D.contr.Idx) : (D.rhsIdx i q 0).val = (q ⟨0, by decide⟩).val :=
  D.rhsIdx_val_of_single rfl i q

/-- ... and at the output's column. -/
theorem rhs_1 (i : S4096x4096.Idx) (q : D.contr.Idx) : (D.rhsIdx i q 1).val = (i 1).val := by
  unfold DotDims.rhsIdx
  rw [dif_neg (show ¬(1 : Fin S1024x4096.rank) ∈ D.rhsBatch by decide), dif_pos (show (1 : Fin S1024x4096.rank) ∈ D.rhsNonContracting by decide)]
  rfl

/-- Row b of x times row n of the weight matrix (the host transposes the weights first): the sum over the 1024 input lanes. -/
theorem rdot (x : FVec Ideal S4096x1024 .f32) (w : FVec Ideal S4096x1024 .f32) (hT : S4096x1024.Transposes [1, 0] S1024x4096)
    (b : Fin 4096) (n : Fin 4096) :
    Host.dotGeneral D none x (transpose S1024x4096 [1, 0] w hT) (ix2 b n) = ∑ k : Fin 1024, x (ix2 b k) * w (ix2 n k) := by
  simp only [Host.dotGeneral]
  rw [Ideal.dotGeneral_apply, ← Equiv.sum_comp (contrEquiv1 D 1024 rfl rfl).symm]
  refine Finset.sum_congr rfl fun k _ => ?_
  have hk := contrEquiv1_symm_val D 1024 rfl rfl k
  have el : D.lhsIdx (ix2 b n) ((contrEquiv1 D 1024 rfl rfl).symm k) = ix2 b k := funext fun a => Fin.ext (by
    match a with
    | ⟨0, _⟩ => exact lhs_0 _ _
    | ⟨1, _⟩ => exact (lhs_1 _ _).trans hk)
  have er : D.rhsIdx (ix2 b n) ((contrEquiv1 D 1024 rfl rfl).symm k) = ix2 k n := funext fun a => Fin.ext (by
    match a with
    | ⟨0, _⟩ => exact (rhs_0 _ _).trans hk
    | ⟨1, _⟩ => exact rhs_1 _ _)
  rw [el, er, transpose_ix2_apply]

/-! ## The pieces of one normalisation over the array [4096, 4, 1024] -/

/-- The mean of gate p of row b. -/
theorem rmean3 (z : FVec Ideal S4096x4x1024 .f32) (hB : S4096x4.BroadcastsInDim S4096x4x1 ![0, 1]) (hB0 : S_.BroadcastsInDim S4096x4x1 ![])
    (hRT : S4096x4x1024.ReducesTo [2] S4096x4) (hU : 0 < S_.numel) (b : Fin 4096) (p : Fin 4) (u : Fin 1) (Z : Row)
    (hz : ∀ k, z (ix3 b p k) = Z k) :
    Host.divf (broadcastInDim S4096x4x1 ![0, 1] hB (Host.reduceAdd z (constant S_ .f32 0x00000000#32) hRT hU))
        (broadcastInDim S4096x4x1 ![] hB0 (constant S_ .f32 0x44800000#32)) (ix3 b p u) = mean Z := by
  show Ideal.div (broadcastInDim (s := S4096x4) S4096x4x1 ![0, 1] hB _ (ix3 b p u)) (broadcastInDim (s := S_) S4096x4x1 ![] hB0 _ (ix3 b p u)) = _
  rw [bid_stat, bcast_scalar, hostsum_gate z _ hRT (by decide) hU b p]
  simp only [hz]
  show Ideal.div (Ideal.ofBits .f32 0x00000000#32 + _) _ = _
  rw [zero_start]
  rfl

/-- The squared deviation at (b, p, k), given the mean. -/
theorem rdev3 (z : FVec Ideal S4096x4x1024 .f32) (μ : FVec Ideal S4096x4x1 .f32) (hB3 : S4096x4x1.BroadcastsInDim S4096x4x1024 ![0, 1, 2])
    (b : Fin 4096) (p : Fin 4) (k : Fin 1024) (Z : Row) (hz : ∀ k, z (ix3 b p k) = Z k) (hμ : μ (ix3 b p (0 : Fin 1)) = mean Z) :
    mulf (subf z (broadcastInDim S4096x4x1024 ![0, 1, 2] hB3 μ)) (subf z (broadcastInDim S4096x4x1024 ![0, 1, 2] hB3 μ)) (ix3 b p k)
      = dev2 Z k := by
  simp only [mulf_apply, subf_apply]
  rw [bid_stats, hz, hμ]
  rfl

/-- Gate p of row b, normalised. -/
theorem rtail3 (z q : FVec Ideal S4096x4x1024 .f32) (γ β : FVec Ideal S4x1024 .f32) (μ : FVec Ideal S4096x4x1 .f32)
    (hBp : S1x4x1024.BroadcastsInDim S4096x4x1024 ![0, 1, 2]) (hBq : S4x1024.BroadcastsInDim S1x4x1024 ![1, 2])
    (hB3 : S4096x4x1.BroadcastsInDim S4096x4x1024 ![0, 1, 2]) (hB : S4096x4.BroadcastsInDim S4096x4x1 ![0, 1])
    (hB0 : S_.BroadcastsInDim S4096x4x1 ![]) (hRT : S4096x4x1024.ReducesTo [2] S4096x4) (hU : 0 < S_.numel)
    (b : Fin 4096) (p : Fin 4) (j : Fin 1024) (Z : Row) (hz : ∀ k, z (ix3 b p k) = Z k) (hμ : μ (ix3 b p (0 : Fin 1)) = mean Z)
    (hq : ∀ k, q (ix3 b p k) = dev2 Z k) :
    addf (Host.divf (mulf (broadcastInDim S4096x4x1024 ![0, 1, 2] hBp (broadcastInDim S1x4x1024 ![1, 2] hBq γ))
          (subf z (broadcastInDim S4096x4x1024 ![0, 1, 2] hB3 μ)))
        (broadcastInDim S4096x4x1024 ![0, 1, 2] hB3
          (addf (Host.sqrt (Host.divf (broadcastInDim S4096x4x1 ![0, 1] hB (Host.reduceAdd q (constant S_ .f32 0x00000000#32) hRT hU))
              (broadcastInDim S4096x4x1 ![] hB0 (constant S_ .f32 0x447FC000#32))))
            (broadcastInDim S4096x4x1 ![] hB0 (constant S_ .f32 0x358637BD#32)))))
      (broadcastInDim S4096x4x1024 ![0, 1, 2] hBp (broadcastInDim S1x4x1024 ![1, 2] hBq β)) (ix3 b p j)
      = lnorm Z (rowOf γ p) (rowOf β p) j := by
  show Ideal.div (broadcastInDim (s := S1x4x1024) S4096x4x1024 ![0, 1, 2] hBp _ (ix3 b p j) * (z (ix3 b p j) - broadcastInDim (s := S4096x4x1) S4096x4x1024 ![0, 1, 2] hB3 μ (ix3 b p j)))
      (broadcastInDim (s := S4096x4x1) S4096x4x1024 ![0, 1, 2] hB3 _ (ix3 b p j)) + broadcastInDim (s := S1x4x1024) S4096x4x1024 ![0, 1, 2] hBp _ (ix3 b p j) = _
  rw [bid_pars, bid_par, bid_stats, bid_stats, bid_pars, bid_par, hz, hμ]
  show Ideal.div (γ (ix2 p j) * (Z j - mean Z))
      (Ideal.sqrt (Ideal.div (broadcastInDim (s := S4096x4) S4096x4x1 ![0, 1] hB _ (ix3 b p (0 : Fin 1))) (broadcastInDim (s := S_) S4096x4x1 ![] hB0 _ (ix3 b p (0 : Fin 1))))
        + broadcastInDim (s := S_) S4096x4x1 ![] hB0 _ (ix3 b p (0 : Fin 1))) + β (ix2 p j) = _
  rw [bid_stat, bcast_scalar, bcast_scalar, hostsum_gate q _ hRT (by decide) hU b p]
  simp only [hq]
  show Ideal.div _ (Ideal.sqrt (Ideal.div (Ideal.ofBits .f32 0x00000000#32 + _) _) + _) + _ = _
  rw [zero_start]
  rfl

section Args
variable (V0 : Valuation τ sig (Elt Ideal))

/-- The argument arrays as the host program finds them. -/
abbrev aX : FVec Ideal S4096x1024 .f32 := V0 (Proc.devRef .tc main_arg0)
abbrev aH : FVec Ideal S4096x1024 .f32 := V0 (Proc.devRef .tc main_arg1)
abbrev aC : FVec Ideal S4096x1024 .f32 := V0 (Proc.devRef .tc main_arg2)
abbrev aWi : FVec Ideal S4096x1024 .f32 := V0 (Proc.devRef .tc main_arg3)
abbrev aB : FVec Ideal S4096 .f32 := V0 (Proc.devRef .tc main_arg4)
abbrev aWh : FVec Ideal S4096x1024 .f32 := V0 (Proc.devRef .tc main_arg5)
abbrev aG : FVec Ideal S4x1024 .f32 := V0 (Proc.devRef .tc main_arg6)
abbrev aBt : FVec Ideal S4x1024 .f32 := V0 (Proc.devRef .tc main_arg7)
abbrev aGc : FVec Ideal S1024 .f32 := V0 (Proc.devRef .tc main_arg8)
abbrev aBc : FVec Ideal S1024 .f32 := V0 (Proc.devRef .tc main_arg9)

/-- Gate p, lane j of row b of the pre-activations. -/
theorem v8_apply (b : Fin 4096) (p : Fin 4) (j : Fin 1024) :
    res_main_v8 V0 (ix3 b p j)
      = gatePre (rowOf (aX V0) b) (rowOf (aH V0) b) (rowsOf (aWi V0)) (rowsOf (aWh V0)) (vecOf (aB V0)) p j := by
  unfold res_main_v8
  refine (cast_gates _ shapeCasts_S4096x4096_S4096x4x1024 b p j (gateCol p j) rfl).trans ?_
  simp only [addf_apply]
  rw [rdot, rdot, bid_rows, bid_row]
  exact pre_host (rowOf (aX V0) b) (rowOf (aH V0) b) (rowsOf (aWi V0)) (rowsOf (aWh V0)) (vecOf (aB V0)) (gateCol p j)

/-- The mean of gate p of row b. -/
theorem v12_apply (b : Fin 4096) (p : Fin 4) (u : Fin 1) :
    res_main_v12 V0 (ix3 b p u)
      = mean (gatePre (rowOf (aX V0) b) (rowOf (aH V0) b) (rowsOf (aWi V0)) (rowsOf (aWh V0)) (vecOf (aB V0)) p) := by
  unfold res_main_v12
  exact rmean3 _ _ _ _ _ b p u _ (v8_apply V0 b p)

/-- Gate p of row b, normalised with row p of gamma and beta. -/
theorem v32_apply (b : Fin 4096) (p : Fin 4) (j : Fin 1024) :
    res_main_v32 V0 (ix3 b p j)
      = gate (rowOf (aX V0) b) (rowOf (aH V0) b) (rowsOf (aWi V0)) (rowsOf (aWh V0)) (vecOf (aB V0)) (rowsOf (aG V0)) (rowsOf (aBt V0)) p j := by
  unfold res_main_v32 res_main_v14
  exact rtail3 _ _ _ _ _ _ _ _ _ _ _ _ b p j _ (v8_apply V0 b p) (v12_apply V0 b p 0)
    (fun k => rdev3 _ _ _ b p k _ (v8_apply V0 b p) (v12_apply V0 b p 0))

end Args

end Cert.ReferenceIdeal.RowValue

end
-- ==== Proof.ReferenceCell.lean ====
/-
  The reference, one batch row at a time: the cell.

  The four normalised gates are cut out of [4096, 4, 1024] and re-read as matrices [4096, 1024]; the sigmoid is written
  out as 1 / (1 + exp (-x)), which on the extended reals is the sigmoid itself; the cell update is normalised over its
  1024 lanes with gamma_c and beta_c, given as vectors and spread over the rows. Row b, lane j of the two results are
  newC and newH of row b of x, h and c.
-/
import proofs.«177142_j19353122636363_1_alg».proof.Proof.ReferenceRows

noncomputable section

namespace Cert.ReferenceIdeal.RowValue

open Cert.ReferenceIdeal Cert.ReferenceIdeal.Gen Cert.ReferenceIdeal.Value Idealize.ShloMosaic Idealize.ShloMosaic.ValueIdx
open Idealize.ShloMosaic.StableHlo Cert.LayoutRead Cert.CellMath

/-! ## The pieces over matrices [4096, 1024] -/

/-- The sigmoid as the host writes it. -/
theorem rsig (g : FVec Ideal S4096x1024 .f32) (hB0 : S_.BroadcastsInDim S4096x1024 ![]) (b : Fin 4096) (j : Fin 1024) :
    Host.divf (broadcastInDim S4096x1024 ![] hB0 (constant S_ .f32 0x3F800000#32))
        (addf (broadcastInDim S4096x1024 ![] hB0 (constant S_ .f32 0x3F800000#32)) (Host.exp (Host.negf g))) (ix2 b j)
      = Ideal.logistic (g (ix2 b j)) := by
  show Ideal.div (broadcastInDim (s := S_) S4096x1024 ![] hB0 _ (ix2 b j))
      (broadcastInDim (s := S_) S4096x1024 ![] hB0 _ (ix2 b j) + Ideal.exp (-(g (ix2 b j)))) = _
  rw [bcast_scalar]
  exact sigmoid_spelt _

/-- The cell update before its normalisation at (b, j), from the three normalised gates there. -/
theorem rmix (c gf gi gg : FVec Ideal S4096x1024 .f32) (hB0 : S_.BroadcastsInDim S4096x1024 ![]) (b : Fin 4096) (j : Fin 1024)
    (C Gi Gf Gg : Row) (hc : c (ix2 b j) = C j) (hf : gf (ix2 b j) = Gf j) (hi : gi (ix2 b j) = Gi j) (hg : gg (ix2 b j) = Gg j) :
    addf (mulf c (Host.divf (broadcastInDim S4096x1024 ![] hB0 (constant S_ .f32 0x3F800000#32))
          (addf (broadcastInDim S4096x1024 ![] hB0 (constant S_ .f32 0x3F800000#32))
            (Host.exp (Host.negf (addf gf (broadcastInDim S4096x1024 ![] hB0 (constant S_ .f32 0x3F800000#32))))))))
        (mulf (Host.divf (broadcastInDim S4096x1024 ![] hB0 (constant S_ .f32 0x3F800000#32))
          (addf (broadcastInDim S4096x1024 ![] hB0 (constant S_ .f32 0x3F800000#32)) (Host.exp (Host.negf gi))))
          (Host.tanh gg)) (ix2 b j)
      = cellMix C Gi Gf Gg j := by
  simp only [addf_apply, mulf_apply]
  rw [rsig, rsig]
  show c (ix2 b j) * Ideal.logistic (gf (ix2 b j) + broadcastInDim (s := S_) S4096x1024 ![] hB0 _ (ix2 b j))
      + Ideal.logistic (gi (ix2 b j)) * Ideal.tanh (gg (ix2 b j)) = _
  rw [bcast_scalar, hc, hf, hi, hg]
  rfl

/-- The mean of row b. -/
theorem rmean2 (z : FVec Ideal S4096x1024 .f32) (hB : S4096.BroadcastsInDim S4096x1 ![0]) (hB0 : S_.BroadcastsInDim S4096x1 ![])
    (hRT : S4096x1024.ReducesTo [1] S4096) (hU : 0 < S_.numel) (b : Fin 4096) (u : Fin 1) (Z : Row) (hz : ∀ k, z (ix2 b k) = Z k) :
    Host.divf (broadcastInDim S4096x1 ![0] hB (Host.reduceAdd z (constant S_ .f32 0x00000000#32) hRT hU))
        (broadcastInDim S4096x1 ![] hB0 (constant S_ .f32 0x44800000#32)) (ix2 b u) = mean Z := by
  show Ideal.div (broadcastInDim (s := S4096) S4096x1 ![0] hB _ (ix2 b u)) (broadcastInDim (s := S_) S4096x1 ![] hB0 _ (ix2 b u)) = _
  rw [bid_col, bcast_scalar, hostsum_row z _ hRT (by decide) hU b]
  simp only [hz]
  show Ideal.div (Ideal.ofBits .f32 0x00000000#32 + _) _ = _
  rw [zero_start]
  rfl

/-- The squared deviation at (b, k), given the mean. -/
theorem rdev2 (z : FVec Ideal S4096x1024 .f32) (μ : FVec Ideal S4096x1 .f32) (hB2 : S4096x1.BroadcastsInDim S4096x1024 ![0, 1])
    (b : Fin 4096) (k : Fin 1024) (Z : Row) (hz : ∀ k, z (ix2 b k) = Z k) (hμ : μ (ix2 b (0 : Fin 1)) = mean Z) :
    mulf (subf z (broadcastInDim S4096x1024 ![0, 1] hB2 μ)) (subf z (broadcastInDim S4096x1024 ![0, 1] hB2 μ)) (ix2 b k) = dev2 Z k := by
  simp only [mulf_apply, subf_apply]
  rw [bid_cols, hz, hμ]
  rfl

/-- Row b, normalised with the vectors gamma and beta. -/
theorem rtail2 (z q : FVec Ideal S4096x1024 .f32) (γ β : FVec Ideal S1024 .f32) (μ : FVec Ideal S4096x1 .f32)
    (hBr : S1x1024.BroadcastsInDim S4096x1024 ![0, 1]) (hBv : S1024.BroadcastsInDim S1x1024 ![1])
    (hB2 : S4096x1.BroadcastsInDim S4096x1024 ![0, 1]) (hB : S4096.BroadcastsInDim S4096x1 ![0])
    (hB0 : S_.BroadcastsInDim S4096x1 ![]) (hRT : S4096x1024.ReducesTo [1] S4096) (hU : 0 < S_.numel)
    (b : Fin 4096) (j : Fin 1024) (Z : Row) (hz : ∀ k, z (ix2 b k) = Z k) (hμ : μ (ix2 b (0 : Fin 1)) = mean Z)
    (hq : ∀ k, q (ix2 b k) = dev2 Z k) :
    addf (Host.divf (mulf (broadcastInDim S4096x1024 ![0, 1] hBr (broadcastInDim S1x1024 ![1] hBv γ))
          (subf z (broadcastInDim S4096x1024 ![0, 1] hB2 μ)))
        (broadcastInDim S4096x1024 ![0, 1] hB2
          (addf (Host.sqrt (Host.divf (broadcastInDim S4096x1 ![0] hB (Host.reduceAdd q (constant S_ .f32 0x00000000#32) hRT hU))
              (broadcastInDim S4096x1 ![] hB0 (constant S_ .f32 0x447FC000#32))))
            (broadcastInDim S4096x1 ![] hB0 (constant S_ .f32 0x358637BD#32)))))
      (broadcastInDim S4096x1024 ![0, 1] hBr (broadcastInDim S1x1024 ![1] hBv β)) (ix2 b j)
      = lnorm Z (vecOf γ) (vecOf β) j := by
  show Ideal.div (broadcastInDim (s := S1x1024) S4096x1024 ![0, 1] hBr _ (ix2 b j) * (z (ix2 b j) - broadcastInDim (s := S4096x1) S4096x1024 ![0, 1] hB2 μ (ix2 b j)))
      (broadcastInDim (s := S4096x1) S4096x1024 ![0, 1] hB2 _ (ix2 b j)) + broadcastInDim (s := S1x1024) S4096x1024 ![0, 1] hBr _ (ix2 b j) = _
  rw [bid_rows, bid_row, bid_cols, bid_cols, bid_rows, bid_row, hz, hμ]
  show Ideal.div (γ (ix1 j) * (Z j - mean Z))
      (Ideal.sqrt (Ideal.div (broadcastInDim (s := S4096) S4096x1 ![0] hB _ (ix2 b (0 : Fin 1))) (broadcastInDim (s := S_) S4096x1 ![] hB0 _ (ix2 b (0 : Fin 1))))
        + broadcastInDim (s := S_) S4096x1 ![] hB0 _ (ix2 b (0 : Fin 1))) + β (ix1 j) = _
  rw [bid_col, bcast_scalar, bcast_scalar, hostsum_row q _ hRT (by decide) hU b]
  simp only [hq]
  show Ideal.div _ (Ideal.sqrt (Ideal.div (Ideal.ofBits .f32 0x00000000#32 + _) _) + _) + _ = _
  rw [zero_start]
  rfl

section Args
variable (V0 : Valuation τ sig (Elt Ideal))

/-- Gate p of the normalised gates, cut out and re-read as a matrix, at (b, j). -/
theorem gate2_apply (o : ℕ) (hS : S4096x4x1024.Slices ![0, o, 0] S4096x1x1024) (hC : S4096x1x1024.ShapeCasts S4096x1024)
    (p : Fin 4) (hp : p.val = o) (b : Fin 4096) (j : Fin 1024) :
    shapeCast S4096x1024 (extractStridedSlice S4096x1x1024 ![0, o, 0] (res_main_v32 V0) hS) hC (ix2 b j)
      = gate (rowOf (aX V0) b) (rowOf (aH V0) b) (rowsOf (aWi V0)) (rowsOf (aWh V0)) (vecOf (aB V0)) (rowsOf (aG V0)) (rowsOf (aBt V0)) p j := by
  rw [cast_gate, slice_gate o _ hS b 0 j p hp]
  exact v32_apply V0 b p j

/-- The cell update before its normalisation, at (b, j). -/
theorem v58_apply (b : Fin 4096) (j : Fin 1024) :
    res_main_v58 V0 (ix2 b j)
      = cellPre (rowOf (aX V0) b) (rowOf (aH V0) b) (rowOf (aC V0) b) (rowsOf (aWi V0)) (rowsOf (aWh V0)) (vecOf (aB V0)) (rowsOf (aG V0)) (rowsOf (aBt V0)) j := by
  unfold res_main_v58
  exact rmix _ _ _ _ _ b j _ _ _ _ rfl (gate2_apply V0 1 _ _ 1 rfl b j) (gate2_apply V0 0 _ _ 0 rfl b j) (gate2_apply V0 2 _ _ 2 rfl b j)

/-- The mean of the cell update of row b. -/
theorem v62_apply (b : Fin 4096) (u : Fin 1) :
    res_main_v62 V0 (ix2 b u)
      = mean (cellPre (rowOf (aX V0) b) (rowOf (aH V0) b) (rowOf (aC V0) b) (rowsOf (aWi V0)) (rowsOf (aWh V0)) (vecOf (aB V0)) (rowsOf (aG V0)) (rowsOf (aBt V0))) := by
  unfold res_main_v62
  exact rmean2 _ _ _ _ _ b u _ (v58_apply V0 b)

/-- The reference's second result, the new cell state, as the term its run ends at. -/
def refC : FVec Ideal S4096x1024 .f32 :=
  addf (Host.divf (mulf (broadcastInDim S4096x1024 ![0, 1] bcast_S1x1024_S4096x1024_0_1 (broadcastInDim S1x1024 ![1] bcast_S1024_S1x1024_1 (V0 (Proc.devRef .tc main_arg8)))) (subf (res_main_v58 V0) (broadcastInDim S4096x1024 ![0, 1] bcast_S4096x1_S4096x1024_0_1 (res_main_v62 V0)))) (broadcastInDim S4096x1024 ![0, 1] bcast_S4096x1_S4096x1024_0_1 (addf (Host.sqrt (Host.divf (broadcastInDim S4096x1 ![0] bcast_S4096_S4096x1_0 (Host.reduceAdd (mulf (res_main_v64 V0) (res_main_v64 V0)) (constant S_ .f32 0x00000000#32) reducesTo_S4096x1024_S4096_d1 h_S_)) (broadcastInDim S4096x1 ![] bcast_S_S4096x1 (constant S_ .f32 0x447FC000#32)))) (broadcastInDim S4096x1 ![] bcast_S_S4096x1 (constant S_ .f32 0x358637BD#32))))) (broadcastInDim S4096x1024 ![0, 1] bcast_S1x1024_S4096x1024_0_1 (broadcastInDim S1x1024 ![1] bcast_S1024_S1x1024_1 (V0 (Proc.devRef .tc main_arg9))))

/-- The reference's first result, the new hidden state, as the term its run ends at. -/
def refH : FVec Ideal S4096x1024 .f32 :=
  mulf (Host.tanh (addf (Host.divf (mulf (broadcastInDim S4096x1024 ![0, 1] bcast_S1x1024_S4096x1024_0_1 (broadcastInDim S1x1024 ![1] bcast_S1024_S1x1024_1 (V0 (Proc.devRef .tc main_arg8)))) (subf (res_main_v58 V0) (broadcastInDim S4096x1024 ![0, 1] bcast_S4096x1_S4096x1024_0_1 (res_main_v62 V0)))) (broadcastInDim S4096x1024 ![0, 1] bcast_S4096x1_S4096x1024_0_1 (addf (Host.sqrt (Host.divf (broadcastInDim S4096x1 ![0] bcast_S4096_S4096x1_0 (Host.reduceAdd (mulf (res_main_v64 V0) (res_main_v64 V0)) (constant S_ .f32 0x00000000#32) reducesTo_S4096x1024_S4096_d1 h_S_)) (broadcastInDim S4096x1 ![] bcast_S_S4096x1 (constant S_ .f32 0x447FC000#32)))) (broadcastInDim S4096x1 ![] bcast_S_S4096x1 (constant S_ .f32 0x358637BD#32))))) (broadcastInDim S4096x1024 ![0, 1] bcast_S1x1024_S4096x1024_0_1 (broadcastInDim S1x1024 ![1] bcast_S1024_S1x1024_1 (V0 (Proc.devRef .tc main_arg9)))))) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (shapeCast _ (extractStridedSlice S4096x1x1024 ![0, 3, 0] (res_main_v32 V0) slices_S4096x4x1024_S4096x1x1024_0_3_0) shapeCasts_S4096x1x1024_S4096x1024)))))

/-- THE NEW CELL STATE at row b, lane j. -/
theorem refC_apply (b : Fin 4096) (j : Fin 1024) :
    refC V0 (ix2 b j)
      = newC (rowOf (aX V0) b) (rowOf (aH V0) b) (rowOf (aC V0) b) (rowsOf (aWi V0)) (rowsOf (aWh V0)) (vecOf (aB V0)) (rowsOf (aG V0)) (rowsOf (aBt V0))
          (vecOf (aGc V0)) (vecOf (aBc V0)) j := by
  unfold refC res_main_v64
  exact rtail2 _ _ _ _ _ _ _ _ _ _ _ _ b j _ (v58_apply V0 b) (v62_apply V0 b 0)
    (fun k => rdev2 _ _ _ b k _ (v58_apply V0 b) (v62_apply V0 b 0))

/-- THE NEW HIDDEN STATE at row b, lane j. -/
theorem refH_apply (b : Fin 4096) (j : Fin 1024) :
    refH V0 (ix2 b j)
      = newH (rowOf (aX V0) b) (rowOf (aH V0) b) (rowOf (aC V0) b) (rowsOf (aWi V0)) (rowsOf (aWh V0)) (vecOf (aB V0)) (rowsOf (aG V0)) (rowsOf (aBt V0))
          (vecOf (aGc V0)) (vecOf (aBc V0)) j := by
  have hC := refC_apply V0 b j
  unfold refC at hC
  unfold refH
  simp only [mulf_apply]
  rw [rsig, gate2_apply V0 3 _ _ 3 rfl b j]
  show Ideal.tanh _ * _ = _
  rw [hC]
  rfl

/-- The reference's new cell state is cellC of the argument arrays. -/
theorem refC_eq : refC V0 = cellC (aX V0) (aH V0) (aC V0) (aWi V0) (aWh V0) (aB V0) (aG V0) (aBt V0) (aGc V0) (aBc V0) := by
  funext i
  obtain ⟨b, j, rfl⟩ : ∃ (b : Fin 4096) (j : Fin 1024), i = ix2 b j := ⟨i 0, i 1, eq_ix2 i⟩
  exact refC_apply V0 b j

/-- The reference's new hidden state is cellH of the argument arrays. -/
theorem refH_eq : refH V0 = cellH (aX V0) (aH V0) (aC V0) (aWi V0) (aWh V0) (aB V0) (aG V0) (aBt V0) (aGc V0) (aBc V0) := by
  funext i
  obtain ⟨b, j, rfl⟩ : ∃ (b : Fin 4096) (j : Fin 1024), i = ix2 b j := ⟨i 0, i 1, eq_ix2 i⟩
  exact refH_apply V0 b j

end Args

end Cert.ReferenceIdeal.RowValue

end
-- ==== Proof.lean ====
/-
  An LSTM cell with layer-normalised gates and cell state, as one fused kernel over blocks of 128 batch rows, against
  its jnp reference, on the extended reals.

  Both programs compute, for every batch row, the same function of that row of x, h and c and of the parameters
  (Proof/CellMath.lean: newC and newH). The kernel forms the 4096 gate pre-activations of a row as x·W_ih^T + h·W_hh^T + b
  from weights the host transposed beforehand, cuts them into the four gates by column ranges, and normalises each with
  its row of gamma and beta; the reference adds the bias before the second product, keeps the gates as an array
  [4096, 4, 1024] and normalises over its last axis, and writes the sigmoid out as 1 / (1 + exp (-x)). On the extended
  reals a sum does not depend on its order or its starting zero, a change of float format is the identity, and the
  written-out sigmoid is the sigmoid, so the two agree lane by lane without any use of the finiteness of the inputs:
  no law that fails at an infinity (distributivity, cancellation) is needed.
  The kernel's side: Proof/KernelRow.lean and Proof/KernelCell.lean (a block row), Proof/KernelArrays.lean (the blocks
  cover the arrays). The reference's side: Proof/ReferenceRows.lean (the gates), Proof/ReferenceCell.lean (the cell).
  The frames are the generated ones; the idealisation rewrote nothing, so preserves is trivial.
-/
import proofs.«177142_j19353122636363_1_alg».proof.Defs
import proofs.«177142_j19353122636363_1_alg».proof.Proof.Gen.Kernel
import proofs.«177142_j19353122636363_1_alg».proof.Proof.Gen.Kernel.Skeleton
import proofs.«177142_j19353122636363_1_alg».proof.Proof.Gen.Kernel.Launch
import proofs.«177142_j19353122636363_1_alg».proof.Proof.Gen.Kernel.Points
import proofs.«177142_j19353122636363_1_alg».proof.Proof.Gen.Kernel.Frame
import proofs.«177142_j19353122636363_1_alg».proof.Proof.Gen.KernelIdeal
import proofs.«177142_j19353122636363_1_alg».proof.Proof.Gen.KernelIdeal.Skeleton
import proofs.«177142_j19353122636363_1_alg».proof.Proof.Gen.KernelIdeal.Launch
import proofs.«177142_j19353122636363_1_alg».proof.Proof.Gen.KernelIdeal.Points
import proofs.«177142_j19353122636363_1_alg».proof.Proof.Gen.KernelIdeal.Frame
import proofs.«177142_j19353122636363_1_alg».proof.Proof.Gen.ReferenceIdeal
import proofs.«177142_j19353122636363_1_alg».proof.Proof.Gen.ReferenceIdeal.Run
import proofs.«177142_j19353122636363_1_alg».proof.Proof.Gen.Pre_finite_inputs
import proofs.«177142_j19353122636363_1_alg».proof.Proof.KernelArrays
import proofs.«177142_j19353122636363_1_alg».proof.Proof.ReferenceCell
import Idealize.ShloMosaic.Adequacy
import Idealize.ShloMosaic.Init

noncomputable section

namespace Cert.Proof

open Idealize.ShloMosaic Idealize.ShloMosaic.TcCoe Idealize.SL.Sem Cert.CellMath

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealisation rewrote no operation. -/
theorem preserves : Cert.preserves_Kernel_KernelIdeal := trivial

/-- Both programs end with the new hidden state at cellH and the new cell state at cellC of the argument arrays. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [← a0, ← a1, ← a2, ← a3, ← a4, ← a5, ← a6, ← a7, ← a8, ← a9]
    exact Cert.ReferenceIdeal.RowValue.refH_eq (StableHlo.launchContents m' c)
  · obtain ⟨a0, a1, a2, a3, a4, a5, a6, a7, a8, a9⟩ := hagree c
    rw [← a0, ← a1, ← a2, ← a3, ← a4, ← a5, ← a6, ← a7, ← a8, ← a9]
    exact Cert.ReferenceIdeal.RowValue.refC_eq (StableHlo.launchContents m' c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
